-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S2x1x1 : Shape := ⟨3, ![2, 1, 1]⟩
abbrev S1x1x1024x1024 : Shape := ⟨4, ![1, 1, 1024, 1024]⟩
abbrev S1x1x1 : Shape := ⟨3, ![1, 1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S_ : Shape := ⟨0, ![]⟩

abbrev nBuf : Space → Nat
  | .hbm => 22
  | .vmem => 12
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S2x1x1, .f32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  natLt_1_32 : 1 < 32
  rotates_S1024x1024_d1 : S1024x1024.Rotates 1 none
  iota_S1024x1024_d1_w32 : S1024x1024.Iotas .tc 32 [1]
  rotates_S1024x1024_d0 : S1024x1024.Rotates 0 none
  iota_S1024x1024_d0_w32 : S1024x1024.Iotas .tc 32 [0]
  shapeCasts_S1x1x1_S1x1x1 : S1x1x1.ShapeCasts S1x1x1
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S_, .f32⟩
  | .hbm, ⟨3, _⟩ => ⟨S32x1x1024x1024, .f32⟩
  | .hbm, ⟨4, _⟩ => ⟨S32x1x1024x1024, .f32⟩
  | .hbm, ⟨5, _⟩ => ⟨S32x1x1024x1024, .f32⟩
  | .hbm, ⟨6, _⟩ => ⟨S32x1x1024x1024, .f32⟩
  | .hbm, ⟨7, _⟩ => ⟨S32x1x1024x1024, .i1⟩
  | .hbm, ⟨8, _⟩ => ⟨S32x1x1024x1024, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S32x1x1024x1024, .f32⟩
  | .hbm, ⟨13, _⟩ => ⟨S32x1x1024x1024, .f32⟩
  | .hbm, ⟨14, _⟩ => ⟨S32x1x1024x1024, .f32⟩
  | .hbm, ⟨15, _⟩ => ⟨S32x1x1024x1024, .f32⟩
  | .hbm, ⟨16, _⟩ => ⟨S32x1x1024x1024, .f32⟩
  | .hbm, ⟨17, _⟩ => ⟨S32x1x1024x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .f32⟩
  | .hbm, ⟨28, _⟩ => ⟨S32x1x1024x1024, .f32⟩
  | .hbm, ⟨29, _⟩ => ⟨S32x1x1024x1024, .i1⟩
  | .hbm, ⟨30, _⟩ => ⟨S32x1x1024x1024, .f32⟩
  | .hbm, ⟨31, _⟩ => ⟨S_, .f32⟩
  | .hbm, ⟨32, _⟩ => ⟨S32x1x1024x1024, .f32⟩
  | .hbm, ⟨33, _⟩ => ⟨S_, .f32⟩
  | .hbm, ⟨34, _⟩ => ⟨S32x1x1024x1024, .f32⟩
  | .hbm, ⟨35, _⟩ => ⟨S32x1x1024x1024, .f32⟩
  | .hbm, ⟨36, _⟩ => ⟨S_, .f32⟩
  | .hbm, ⟨37, _⟩ => ⟨S32x1x1024x1024, .f32⟩
  | .hbm, ⟨38, _⟩ => ⟨S32x1x1024x1024, .i1⟩
  | .hbm, ⟨39, _⟩ => ⟨S_, .f32⟩
  | .hbm, ⟨40, _⟩ => ⟨S_, .f32⟩
  | .hbm, ⟨41, _⟩ => ⟨S32x1x1024x1024, .f32⟩
  | .hbm, ⟨42, _⟩ => ⟨S32x1x1024x1024, .f32⟩
  | .hbm, ⟨43, _⟩ => ⟨S32x1x1024x1024, .f32⟩
  | .hbm, ⟨44, _⟩ => ⟨S_, .f32⟩
  | .hbm, ⟨45, _⟩ => ⟨S32x1x1024x1024, .f32⟩
  | .hbm, ⟨46, _⟩ => ⟨S32x1x1024x1024, .f32⟩
  | .hbm, ⟨47, _⟩ => ⟨S32x1x1024x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_v14 : Ref sig .tc := ⟨.hbm, 37, rfl⟩
abbrev main_v15 : Ref sig .tc := ⟨.hbm, 38, rfl⟩
abbrev main_cst_7 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_v16 : Ref sig .tc := ⟨.hbm, 43, rfl⟩
abbrev main_cst_9 : Ref sig .tc := ⟨.hbm, 44, rfl⟩
abbrev main_call2_v0 : Ref sig .tc := ⟨.hbm, 45, rfl⟩
abbrev main_v17 : Ref sig .tc := ⟨.hbm, 46, rfl⟩
abbrev main_v18 : Ref sig .tc := ⟨.hbm, 47, rfl⟩
abbrev main_cst_10 : Ref sig .tc := ⟨.hbm, 48, rfl⟩
abbrev main_v19 : Ref sig .tc := ⟨.hbm, 49, rfl⟩
abbrev main_cst_11 : Ref sig .tc := ⟨.hbm, 50, rfl⟩
abbrev main_v20 : Ref sig .tc := ⟨.hbm, 51, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel
  reduceWindows_S32x1x1024x1024_S32x1x1024x1024_w1s1p0_0_w1s1p0_0_w5s1p2_2_w5s1p2_2 : S32x1x1024x1024.ReduceWindows (![1, 1, 5, 5] : Fin 4 → Nat) ![1, 1, 1, 1] ![0, 0, 2, 2] ![0, 0, 2, 2] S32x1x1024x1024

variable [Facts₀]

class Facts : Prop extends Facts₀ where

variable [Facts]
-- ==== Proof.LibMorphDefs.lean ====
/-
  A window-5 pooling of a 1024×1024 slab along one axis, as a kernel computes it: the slab combined with four copies of
  itself rotated by 2, 1, 1023 and 1022 places, each with the places the rotation wrapped around replaced by a padding
  value. Rotating by k moves entry j − k to j, so the first two are the neighbours below (the first k places padded) and
  the last two, rotations by 1024 − d, the neighbours above (the last d places padded). Also: slab n of a 32-slab array.
  Definitions only.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Morph

open Idealize.ShloMosaic Idealize.ShloMosaic.ValueIdx

/-- One 1024×1024 slab. -/
abbrev Sq : Shape := ⟨2, ![1024, 1024]⟩
/-- The whole array: 32 slabs. -/
abbrev Arr : Shape := ⟨4, ![32, 1, 1024, 1024]⟩
/-- Rank zero. -/
abbrev Sc : Shape := ⟨0, ![]⟩

variable {F : FTy → Type} [FloatOps F]

/-- The slab moved `k` places up along axis `ax` (entry `j` takes entry `j − k`), the first `k` places filled with `pad`. -/
def fromBelow (ax : Fin Sq.rank) (k : BitVec 32) (pad : F .f32) (x : FVec F Sq .f32)
    (hr : Sq.Rotates ax none) (hi : Sq.Iotas .tc 32 [ax]) : FVec F Sq .f32 :=
  select (cmpi .slt (iota .tc Sq 32 [ax] hi) (broadcast Sq k)) (broadcast Sq pad) (dynamicRotate ax k none x hr)

/-- The slab rotated by `k` along axis `ax`, the places from `k` on filled with `pad` (for `k = 1024 − d`: entry `j` takes entry
    `j + d`, the last `d` places padded). -/
def fromAbove (ax : Fin Sq.rank) (k : BitVec 32) (pad : F .f32) (x : FVec F Sq .f32)
    (hr : Sq.Rotates ax none) (hi : Sq.Iotas .tc 32 [ax]) : FVec F Sq .f32 :=
  select (cmpi .sge (iota .tc Sq 32 [ax] hi) (broadcast Sq k)) (broadcast Sq pad) (dynamicRotate ax k none x hr)

/-- A window-5 pooling along one axis by `op`: the slab combined with its four padded shifts, in the order −2, −1, +1, +2. -/
def pool (op : FVec F Sq .f32 → FVec F Sq .f32 → FVec F Sq .f32) (ax : Fin Sq.rank) (pad : F .f32) (x : FVec F Sq .f32)
    (hr : Sq.Rotates ax none) (hi : Sq.Iotas .tc 32 [ax]) : FVec F Sq .f32 :=
  op (op (op (op x (fromBelow ax 2#32 pad x hr hi)) (fromBelow ax 1#32 pad x hr hi)) (fromAbove ax 1023#32 pad x hr hi))
    (fromAbove ax 1022#32 pad x hr hi)

/-- Slab `n` of a whole array. -/
def slab {α : Type} (x : Arr.Idx → α) (n : Fin 32) : Sq.Idx → α := fun j => x (ix4 n (0 : Fin 1) (j 0) (j 1))

theorem slab_apply {α : Type} (x : Arr.Idx → α) (n : Fin 32) (r c : Fin 1024) : slab x n (ix2 r c) = x (ix4 n (0 : Fin 1) r c) := rfl

end Cert.Morph

end
-- ==== Proof.KSlab.lean ====
/-
  What one grid point does to the four running values, as functions of the point's two input blocks.

  A point holds one 1024×1024 slab of predictions and one of targets. From them: the slab of unweighted losses
  `softplus p − p·t`; the target's mask (one above one half, zero elsewhere), dilated and eroded over a 5×5 window by two
  window-5 poolings each (along the lanes, then along the rows); the slab of weights (one tenth where the dilated and
  eroded masks differ, one elsewhere); and the weighted losses. Each slab is reduced to one number — a sum (resp. a
  maximum, a minimum) along the lanes and then down the rows — and the point adds the two sums to the running sums and
  folds the target's greatest and least value into the running maximum and minimum. The first point of each core starts
  the running values at 0, 0, −∞, +∞.
-/
import proofs.«116982_j21784074126165_2_alg».proof.Proof.Gen.KernelIdeal.Frame
import proofs.«116982_j21784074126165_2_alg».proof.Proof.LibMorphDefs
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The slab of unweighted losses of a point's prediction block `x0` and target block `x1`. -/
def lossV (x0 x1 : Vec F S1x1x1024x1024 .f32) : FVec F S1024x1024 .f32 := k0_pay9 x0 x1
/-- The target block as a slab. -/
def tgtV (x1 : Vec F S1x1x1024x1024 .f32) : FVec F S1024x1024 .f32 := k0_pay8 x1
/-- The target's mask: one above one half, zero elsewhere. -/
def maskV (x1 : Vec F S1x1x1024x1024 .f32) : FVec F S1024x1024 .f32 := k0_pay10 x1

/-- The mask dilated over a 5×5 window: the greatest value of the window, places outside the slab counting as −∞. -/
def dilV (x1 : Vec F S1x1x1024x1024 .f32) : FVec F S1024x1024 .f32 :=
  Cert.Morph.pool maximumf 0 (Scalar.ofBits .f32 0xFF800000#32)
    (Cert.Morph.pool maximumf 1 (Scalar.ofBits .f32 0xFF800000#32) (maskV x1) rotates_S1024x1024_d1 iota_S1024x1024_d1_w32)
    rotates_S1024x1024_d0 iota_S1024x1024_d0_w32

/-- The mask eroded over a 5×5 window: the least value of the window, places outside the slab counting as +∞. -/
def eroV (x1 : Vec F S1x1x1024x1024 .f32) : FVec F S1024x1024 .f32 :=
  Cert.Morph.pool minimumf 0 (Scalar.ofBits .f32 0x7F800000#32)
    (Cert.Morph.pool minimumf 1 (Scalar.ofBits .f32 0x7F800000#32) (maskV x1) rotates_S1024x1024_d1 iota_S1024x1024_d1_w32)
    rotates_S1024x1024_d0 iota_S1024x1024_d0_w32

/-- The slab of weights: one tenth where the dilated mask exceeds the eroded one, one elsewhere. -/
def weightV (x1 : Vec F S1x1x1024x1024 .f32) : FVec F S1024x1024 .f32 :=
  select (cmpf .ogt (subf (dilV x1) (eroV x1)) (broadcast S1024x1024 (Scalar.ofBits .f32 0x00000000#32)))
    (broadcast S1024x1024 (Scalar.ofBits .f32 0x3DCCCCCD#32)) (broadcast S1024x1024 (Scalar.ofBits .f32 0x3F800000#32))

/-- The slab of weighted losses. -/
def wlossV (x0 x1 : Vec F S1x1x1024x1024 .f32) : FVec F S1024x1024 .f32 := mulf (lossV x0 x1) (weightV x1)

/-- A slab summed along the lanes and then down the rows, as a one-element block. -/
def sum2d (v : FVec F S1024x1024 .f32) : FVec F S1x1x1 .f32 :=
  shapeCast S1x1x1 (shapeCast S1x1 (multiReduction .add [0] S1
    (shapeCast S1024x1 (multiReduction .add [1] S1024 v 0x00000000#32 reduces_S1024x1024_S1024 (.inl rfl) rfl) shapeCasts_S1024_S1024x1)
    0x00000000#32 reduces_S1024x1_S1 (.inl rfl) rfl) shapeCasts_S1_S1x1) shapeCasts_S1x1_S1x1x1

/-- A slab's greatest value, along the lanes and then down the rows, as a one-element block. -/
def max2d (v : FVec F S1024x1024 .f32) : FVec F S1x1x1 .f32 :=
  shapeCast S1x1x1 (shapeCast S1x1 (multiReduction .maximumf [0] S1
    (shapeCast S1024x1 (multiReduction .maximumf [1] S1024 v 0xFF800000#32 reduces_S1024x1024_S1024 (.inl rfl) rfl) shapeCasts_S1024_S1024x1)
    0xFF800000#32 reduces_S1024x1_S1 (.inl rfl) rfl) shapeCasts_S1_S1x1) shapeCasts_S1x1_S1x1x1

/-- A slab's least value, likewise. -/
def min2d (v : FVec F S1024x1024 .f32) : FVec F S1x1x1 .f32 :=
  shapeCast S1x1x1 (shapeCast S1x1 (multiReduction .minimumf [0] S1
    (shapeCast S1024x1 (multiReduction .minimumf [1] S1024 v 0x7F800000#32 reduces_S1024x1024_S1024 (.inl rfl) rfl) shapeCasts_S1024_S1024x1)
    0x7F800000#32 reduces_S1024x1_S1 (.inl rfl) rfl) shapeCasts_S1_S1x1) shapeCasts_S1x1_S1x1x1

/-- One point's step on a running sum `xo`. -/
def stepSum (xo : Vec F S1x1x1 .f32) (v : FVec F S1024x1024 .f32) : Vec F S1x1x1 .f32 :=
  addf (shapeCast S1x1x1 xo shapeCasts_S1x1x1_S1x1x1) (sum2d v)
/-- One point's step on a running maximum. -/
def stepMax (xo : Vec F S1x1x1 .f32) (v : FVec F S1024x1024 .f32) : Vec F S1x1x1 .f32 :=
  maximumf (shapeCast S1x1x1 xo shapeCasts_S1x1x1_S1x1x1) (max2d v)
/-- One point's step on a running minimum. -/
def stepMin (xo : Vec F S1x1x1 .f32) (v : FVec F S1024x1024 .f32) : Vec F S1x1x1 .f32 :=
  minimumf (shapeCast S1x1x1 xo shapeCasts_S1x1x1_S1x1x1) (min2d v)

/-- The values a core's first point starts from. -/
abbrev zero1 : Vec F S1x1x1 .f32 := broadcast S1x1x1 (Scalar.ofBits .f32 0x00000000#32)
abbrev negInf1 : Vec F S1x1x1 .f32 := broadcast S1x1x1 (Scalar.ofBits .f32 0xFF800000#32)
abbrev posInf1 : Vec F S1x1x1 .f32 := broadcast S1x1x1 (Scalar.ofBits .f32 0x7F800000#32)

/-- A later point of a core (not its first): what it leaves in output 2's buffer, from the running values `xo·`. -/
theorem out_B_2 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i)
    (x0 x1 : Vec F S1x1x1024x1024 .f32) (xo2 xo3 xo4 xo5 : Vec F S1x1x1 .f32) :
    out0_B_2 c i a2 h2 a3 h3 a4 h4 a5 h5 a6 h6 a7 h7 hc x0 x1 xo2 xo3 xo4 xo5 = stepSum xo2 (lossV x0 x1) := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x1x1024x1024) hz4]
  rfl

/-- A later point of a core (not its first): what it leaves in output 3's buffer, from the running values `xo·`. -/
theorem out_B_3 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i)
    (x0 x1 : Vec F S1x1x1024x1024 .f32) (xo2 xo3 xo4 xo5 : Vec F S1x1x1 .f32) :
    out0_B_3 c i a2 h2 a3 h3 a4 h4 a5 h5 a6 h6 a7 h7 hc x0 x1 xo2 xo3 xo4 xo5 = stepSum xo3 (wlossV x0 x1) := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x1x1024x1024) hz4]
  rfl

/-- A later point of a core (not its first): what it leaves in output 4's buffer, from the running values `xo·`. -/
theorem out_B_4 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i)
    (x0 x1 : Vec F S1x1x1024x1024 .f32) (xo2 xo3 xo4 xo5 : Vec F S1x1x1 .f32) :
    out0_B_4 c i a2 h2 a3 h3 a4 h4 a5 h5 a6 h6 a7 h7 hc x0 x1 xo2 xo3 xo4 xo5 = stepMax xo4 (tgtV x1) := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x1x1024x1024) hz4]
  rfl

/-- A later point of a core (not its first): what it leaves in output 5's buffer, from the running values `xo·`. -/
theorem out_B_5 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i)
    (x0 x1 : Vec F S1x1x1024x1024 .f32) (xo2 xo3 xo4 xo5 : Vec F S1x1x1 .f32) :
    out0_B_5 c i a2 h2 a3 h3 a4 h4 a5 h5 a6 h6 a7 h7 hc x0 x1 xo2 xo3 xo4 xo5 = stepMin xo5 (tgtV x1) := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x1x1024x1024) hz4]
  rfl

/-- A core's first point: it stores the starting value, reads it back, and leaves one step from it in output 2's buffer. -/
theorem out_A_2 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i)
    (x0 x1 : Vec F S1x1x1024x1024 .f32) :
    out0_A_2 c i a2 h2 a3 h3 a4 h4 a5 h5 a6 h6 a7 h7 hc x0 x1 = stepSum zero1 (lossV x0 x1) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread,
    View.ld_unit_zero (S := S1x1x1) hz3, View.ld_unit_zero (S := S1x1x1024x1024) hz4]
  rfl

/-- A core's first point: it stores the starting value, reads it back, and leaves one step from it in output 3's buffer. -/
theorem out_A_3 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i)
    (x0 x1 : Vec F S1x1x1024x1024 .f32) :
    out0_A_3 c i a2 h2 a3 h3 a4 h4 a5 h5 a6 h6 a7 h7 hc x0 x1 = stepSum zero1 (wlossV x0 x1) := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread,
    View.ld_unit_zero (S := S1x1x1) hz3, View.ld_unit_zero (S := S1x1x1024x1024) hz4]
  rfl

/-- A core's first point: it stores the starting value, reads it back, and leaves one step from it in output 4's buffer. -/
theorem out_A_4 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i)
    (x0 x1 : Vec F S1x1x1024x1024 .f32) :
    out0_A_4 c i a2 h2 a3 h3 a4 h4 a5 h5 a6 h6 a7 h7 hc x0 x1 = stepMax negInf1 (tgtV x1) := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread,
    View.ld_unit_zero (S := S1x1x1) hz3, View.ld_unit_zero (S := S1x1x1024x1024) hz4]
  rfl

/-- A core's first point: it stores the starting value, reads it back, and leaves one step from it in output 5's buffer. -/
theorem out_A_5 (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i)
    (x0 x1 : Vec F S1x1x1024x1024 .f32) :
    out0_A_5 c i a2 h2 a3 h3 a4 h4 a5 h5 a6 h6 a7 h7 hc x0 x1 = stepMin posInf1 (tgtV x1) := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread,
    View.ld_unit_zero (S := S1x1x1) hz3, View.ld_unit_zero (S := S1x1x1024x1024) hz4]
  rfl

end Cert.KernelIdeal.KV

end
-- ==== Proof.KAcc.lean ====
/-
  The four running values, point by point.

  The grid is 2 cores × 16 steps, walked in order: point n is step n mod 16 of core n / 16 and holds slab n of the
  predictions and of the targets. At a core's first step the running values start afresh; at every other step the
  point takes one step from what the point before left. What the outputs' buffers hold after each point is exactly this
  recursion, by induction on the point.
-/
import proofs.«116982_j21784074126165_2_alg».proof.Proof.KSlab

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- One step of the four running values `p` on a prediction block `x0` and a target block `x1`. -/
def step (p : Vec F S1x1x1 .f32 × Vec F S1x1x1 .f32 × Vec F S1x1x1 .f32 × Vec F S1x1x1 .f32) (x0 x1 : Vec F S1x1x1024x1024 .f32) : Vec F S1x1x1 .f32 × Vec F S1x1x1 .f32 × Vec F S1x1x1 .f32 × Vec F S1x1x1 .f32 :=
  (stepSum p.1 (lossV x0 x1), stepSum p.2.1 (wlossV x0 x1), stepMax p.2.2.1 (tgtV x1), stepMin p.2.2.2 (tgtV x1))

/-- The values a core starts from: 0, 0, −∞, +∞. -/
def start : Vec F S1x1x1 .f32 × Vec F S1x1x1 .f32 × Vec F S1x1x1 .f32 × Vec F S1x1x1 .f32 := (zero1, zero1, negInf1, posInf1)

/-- A core's first point leaves one step from the starting values, in all four outputs. -/
theorem first_eq (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : cond0_0 i)
    (x0 x1 : Vec F S1x1x1024x1024 .f32) :
    ((out0_A_2 c i a2 h2 a3 h3 a4 h4 a5 h5 a6 h6 a7 h7 hc x0 x1, out0_A_3 c i a2 h2 a3 h3 a4 h4 a5 h5 a6 h6 a7 h7 hc x0 x1, out0_A_4 c i a2 h2 a3 h3 a4 h4 a5 h5 a6 h6 a7 h7 hc x0 x1, out0_A_5 c i a2 h2 a3 h3 a4 h4 a5 h5 a6 h6 a7 h7 hc x0 x1) : Vec F S1x1x1 .f32 × Vec F S1x1x1 .f32 × Vec F S1x1x1 .f32 × Vec F S1x1x1 .f32) = step start x0 x1 := by
  rw [out_A_2, out_A_3, out_A_4, out_A_5]
  rfl

/-- Every other point leaves one step from the running values `xo`, in all four outputs. -/
theorem next_eq (c : Dev nD) (i : grid0.Coords) (a2 : Memref sig .tc .vmem S1x1x1024x1024 .f32) (h2 : a2.IsWhole) (a3 : Memref sig .tc .vmem S1x1x1024x1024 .f32) (h3 : a3.IsWhole) (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (hc : ¬cond0_0 i)
    (x0 x1 : Vec F S1x1x1024x1024 .f32) (xo : Vec F S1x1x1 .f32 × Vec F S1x1x1 .f32 × Vec F S1x1x1 .f32 × Vec F S1x1x1 .f32) :
    ((out0_B_2 c i a2 h2 a3 h3 a4 h4 a5 h5 a6 h6 a7 h7 hc x0 x1 xo.1 xo.2.1 xo.2.2.1 xo.2.2.2, out0_B_3 c i a2 h2 a3 h3 a4 h4 a5 h5 a6 h6 a7 h7 hc x0 x1 xo.1 xo.2.1 xo.2.2.1 xo.2.2.2, out0_B_4 c i a2 h2 a3 h3 a4 h4 a5 h5 a6 h6 a7 h7 hc x0 x1 xo.1 xo.2.1 xo.2.2.1 xo.2.2.2, out0_B_5 c i a2 h2 a3 h3 a4 h4 a5 h5 a6 h6 a7 h7 hc x0 x1 xo.1 xo.2.1 xo.2.2.1 xo.2.2.2) : Vec F S1x1x1 .f32 × Vec F S1x1x1 .f32 × Vec F S1x1x1 .f32 × Vec F S1x1x1 .f32) = step xo x0 x1 := by
  rw [out_B_2, out_B_3, out_B_4, out_B_5]
  rfl

/-- The prediction block and the target block of point `t`. -/
abbrev blk0 (c : Dev nD) (t : Fin cfg0.N) : Vec F S1x1x1024x1024 .f32 := iblk m c 0 t
abbrev blk1 (c : Dev nD) (t : Fin cfg0.N) : Vec F S1x1x1024x1024 .f32 := iblk m c 1 t

/-- The four running values after point `n`. -/
def chain (c : Dev nD) : (n : ℕ) → n < cfg0.N → Vec F S1x1x1 .f32 × Vec F S1x1x1 .f32 × Vec F S1x1x1 .f32 × Vec F S1x1x1 .f32
  | 0, h => step start (blk0 m c ⟨0, h⟩) (blk1 m c ⟨0, h⟩)
  | n + 1, h =>
    if (n + 1) % 16 = 0 then step start (blk0 m c ⟨n + 1, h⟩) (blk1 m c ⟨n + 1, h⟩)
    else step (chain c n (Nat.lt_of_succ_lt h)) (blk0 m c ⟨n + 1, h⟩) (blk1 m c ⟨n + 1, h⟩)

/-- At a core's first step the chain starts afresh. -/
theorem chain_first (c : Dev nD) (t : Fin cfg0.N) (h0 : t.val % 16 = 0) :
    chain m c t.val t.isLt = step start (blk0 m c t) (blk1 m c t) := by
  obtain ⟨n, hn⟩ := t
  cases n with
  | zero => rfl
  | succ n => exact if_pos h0

/-- At every other step it takes one step from the point before. -/
theorem chain_next (c : Dev nD) (t : Fin cfg0.N) (h0 : ¬t.val % 16 = 0) :
    chain m c t.val t.isLt
      = step (chain m c (t.val - 1) (Nat.lt_of_le_of_lt (Nat.sub_le _ _) t.isLt)) (blk0 m c t) (blk1 m c t) := by
  obtain ⟨n, hn⟩ := t
  cases n with
  | zero => exact absurd (Nat.zero_mod _) h0
  | succ n => exact if_neg h0

/-- What the four outputs' buffers hold after point `n` is the chain: by induction on the point. -/
theorem outsAt_eq (c : Dev nD) : ∀ (n : ℕ) (h : n < cfg0.N), outsAt0 m c n h = chain m c n h
  | 0, h => by
    rw [outsAt0_A m c ⟨0, h⟩ rfl]
    exact first_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩)
  | n + 1, h => by
    by_cases h0 : (n + 1) % 16 = 0
    · rw [outsAt0_A m c ⟨n + 1, h⟩ h0, chain_first m c ⟨n + 1, h⟩ h0]
      exact first_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩)
    · rw [outsAt0_B m c ⟨n + 1, h⟩ h0, chain_next m c ⟨n + 1, h⟩ h0]
      refine (next_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩)
        (outsAt0 m c n (Nat.lt_of_succ_lt h))).trans ?_
      rw [outsAt_eq c n (Nat.lt_of_succ_lt h)]
      rfl

end Cert.KernelIdeal.KV

end
-- ==== Proof.KFinal.lean ====
/-
  The four output arrays after the run.

  Each output is a [2, 1, 1] array, one entry per core, tiled by one-element blocks; a core's block is written back once,
  after the core's sixteenth step (points 15 and 31). So entry `a` of each array ends holding what the running value was
  after point `16·a + 15`, and both entries are covered.
-/
import proofs.«116982_j21784074126165_2_alg».proof.Proof.KAcc
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The only index of a one-element block. -/
abbrev i000 : S1x1x1.Idx := ix3 (0 : Fin 1) (0 : Fin 1) (0 : Fin 1)

instance : Subsingleton S1x1x1.Idx :=
  ⟨fun a b => funext fun d => by
    match d with
    | ⟨0, _⟩ => exact Subsingleton.elim (α := Fin 1) _ _
    | ⟨1, _⟩ => exact Subsingleton.elim (α := Fin 1) _ _
    | ⟨2, _⟩ => exact Subsingleton.elim (α := Fin 1) _ _⟩

/-- The chain depends on the point's number only. -/
theorem chain_congr (c : Dev nD) {n n' : ℕ} (e : n = n') (h : n < cfg0.N) (h' : n' < cfg0.N) :
    chain m c n h = chain m c n' h' := by
  subst e; rfl

/-- The four running values after core `a`'s last point. -/
def coreVals (c : Dev nD) (a : ℕ) (ha : a < 2) : Vec F S1x1x1 .f32 × Vec F S1x1x1 .f32 × Vec F S1x1x1 .f32 × Vec F S1x1x1 .f32 :=
  chain m c (16 * a + 15) (by rw [show cfg0.N = 32 from N_0]; omega)

/-! ## Output 2 -/

/-- The index map of output 2, decided once over the 32 points: block `n / 16` along the first axis, block 0 along the others. -/
theorem idx_facts2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)

/-- The array output 2 ends as: entry `a` is what core `a`'s last point left. -/
def G2 (c : Dev nD) : S2x1x1.Idx → Elt F .f32 := fun j => (coreVals m c (j 0).val (j 0).isLt).1 i000

/-- What a core's last point writes back is its entry of `G2`. -/
theorem flushed_eq2 (c : Dev nD) (t : Fin cfg0.N) (hf : (cfg0.win 2).flush t = true) :
    (dats m 0 c).flushed 2 t = ((cfg0.win 2).blk t).view.read (Elt F) (G2 m c) := by
  have hN : cfg0.N = 32 := N_0
  have h15 : t.val % 16 = 15 := (flush0_2 t).mp hf
  obtain ⟨e0, -, -⟩ := idx_facts2 t
  show (cfg0.win 2).cut (grid0.coords t) ((dats m 0 c).after 2 t) = _
  rw [after0_2, outsAt_eq]
  funext y
  show (chain m c t.val t.isLt).1 ((cfg0.win 2).xinj (grid0.coords t) y) = G2 m c (((cfg0.win 2).blk t).view.emb y)
  have hy : (y 0).val < 1 := Nat.lt_of_lt_of_le (y 0).isLt ((cfg0.win 2).xsize_le (grid0.coords t) 0)
  have hemb : ((((cfg0.win 2).blk t).view.emb y) 0).val = win0_2.index t (0 : Fin 3) * 1 + 1 * (y 0).val := rfl
  have e : 16 * ((((cfg0.win 2).blk t).view.emb y) 0).val + 15 = t.val := by rw [hemb, e0]; omega
  unfold G2 coreVals
  rw [chain_congr m c e _ t.isLt]
  exact congrArg _ (Subsingleton.elim (α := S1x1x1.Idx) _ _)

/-- An entry of the array is in point `t`'s block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- So the array ends holding `G2`: entry `a` is covered by core `a`'s last point. -/
theorem final2 (c : Dev nD) : (dats m 0 c).arrAt 2 cfg0.N = G2 m c :=
  (dats m 0 c).arrAt_eq_of_cover 2 (G2 m c) (flushed_eq2 m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by omega
    obtain ⟨e0, e1, e2⟩ := idx_facts2 ⟨16 * (i 0).val + 15, ht⟩
    refine ⟨⟨16 * (i 0).val + 15, ht⟩, (flush0_2 _).mpr (by show (16 * (i 0).val + 15) % 16 = 15; omega), ?_⟩
    rw [mem_blk2]
    intro a
    match a with
    | ⟨0, _⟩ => show win0_2.index _ (0 : Fin 3) * 1 ≤ (i 0).val ∧ (i 0).val < win0_2.index _ (0 : Fin 3) * 1 + 1
                rw [e0]; show (16 * (i 0).val + 15) / 16 * 1 ≤ (i 0).val ∧ (i 0).val < (16 * (i 0).val + 15) / 16 * 1 + 1; omega
    | ⟨1, _⟩ => show win0_2.index _ (1 : Fin 3) * 1 ≤ (i 1).val ∧ (i 1).val < win0_2.index _ (1 : Fin 3) * 1 + 1
                rw [e1]; omega
    | ⟨2, _⟩ => show win0_2.index _ (2 : Fin 3) * 1 ≤ (i 2).val ∧ (i 2).val < win0_2.index _ (2 : Fin 3) * 1 + 1
                rw [e2]; omega

/-! ## Output 3 -/

/-- The index map of output 3, decided once over the 32 points: block `n / 16` along the first axis, block 0 along the others. -/
theorem idx_facts3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

/-- The array output 3 ends as: entry `a` is what core `a`'s last point left. -/
def G3 (c : Dev nD) : S2x1x1.Idx → Elt F .f32 := fun j => (coreVals m c (j 0).val (j 0).isLt).2.1 i000

/-- What a core's last point writes back is its entry of `G3`. -/
theorem flushed_eq3 (c : Dev nD) (t : Fin cfg0.N) (hf : (cfg0.win 3).flush t = true) :
    (dats m 0 c).flushed 3 t = ((cfg0.win 3).blk t).view.read (Elt F) (G3 m c) := by
  have hN : cfg0.N = 32 := N_0
  have h15 : t.val % 16 = 15 := (flush0_3 t).mp hf
  obtain ⟨e0, -, -⟩ := idx_facts3 t
  show (cfg0.win 3).cut (grid0.coords t) ((dats m 0 c).after 3 t) = _
  rw [after0_3, outsAt_eq]
  funext y
  show (chain m c t.val t.isLt).2.1 ((cfg0.win 3).xinj (grid0.coords t) y) = G3 m c (((cfg0.win 3).blk t).view.emb y)
  have hy : (y 0).val < 1 := Nat.lt_of_lt_of_le (y 0).isLt ((cfg0.win 3).xsize_le (grid0.coords t) 0)
  have hemb : ((((cfg0.win 3).blk t).view.emb y) 0).val = win0_3.index t (0 : Fin 3) * 1 + 1 * (y 0).val := rfl
  have e : 16 * ((((cfg0.win 3).blk t).view.emb y) 0).val + 15 = t.val := by rw [hemb, e0]; omega
  unfold G3 coreVals
  rw [chain_congr m c e _ t.isLt]
  exact congrArg _ (Subsingleton.elim (α := S1x1x1.Idx) _ _)

/-- An entry of the array is in point `t`'s block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- So the array ends holding `G3`: entry `a` is covered by core `a`'s last point. -/
theorem final3 (c : Dev nD) : (dats m 0 c).arrAt 3 cfg0.N = G3 m c :=
  (dats m 0 c).arrAt_eq_of_cover 3 (G3 m c) (flushed_eq3 m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by omega
    obtain ⟨e0, e1, e2⟩ := idx_facts3 ⟨16 * (i 0).val + 15, ht⟩
    refine ⟨⟨16 * (i 0).val + 15, ht⟩, (flush0_3 _).mpr (by show (16 * (i 0).val + 15) % 16 = 15; omega), ?_⟩
    rw [mem_blk3]
    intro a
    match a with
    | ⟨0, _⟩ => show win0_3.index _ (0 : Fin 3) * 1 ≤ (i 0).val ∧ (i 0).val < win0_3.index _ (0 : Fin 3) * 1 + 1
                rw [e0]; show (16 * (i 0).val + 15) / 16 * 1 ≤ (i 0).val ∧ (i 0).val < (16 * (i 0).val + 15) / 16 * 1 + 1; omega
    | ⟨1, _⟩ => show win0_3.index _ (1 : Fin 3) * 1 ≤ (i 1).val ∧ (i 1).val < win0_3.index _ (1 : Fin 3) * 1 + 1
                rw [e1]; omega
    | ⟨2, _⟩ => show win0_3.index _ (2 : Fin 3) * 1 ≤ (i 2).val ∧ (i 2).val < win0_3.index _ (2 : Fin 3) * 1 + 1
                rw [e2]; omega

/-! ## Output 4 -/

/-- The index map of output 4, decided once over the 32 points: block `n / 16` along the first axis, block 0 along the others. -/
theorem idx_facts4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

/-- The array output 4 ends as: entry `a` is what core `a`'s last point left. -/
def G4 (c : Dev nD) : S2x1x1.Idx → Elt F .f32 := fun j => (coreVals m c (j 0).val (j 0).isLt).2.2.1 i000

/-- What a core's last point writes back is its entry of `G4`. -/
theorem flushed_eq4 (c : Dev nD) (t : Fin cfg0.N) (hf : (cfg0.win 4).flush t = true) :
    (dats m 0 c).flushed 4 t = ((cfg0.win 4).blk t).view.read (Elt F) (G4 m c) := by
  have hN : cfg0.N = 32 := N_0
  have h15 : t.val % 16 = 15 := (flush0_4 t).mp hf
  obtain ⟨e0, -, -⟩ := idx_facts4 t
  show (cfg0.win 4).cut (grid0.coords t) ((dats m 0 c).after 4 t) = _
  rw [after0_4, outsAt_eq]
  funext y
  show (chain m c t.val t.isLt).2.2.1 ((cfg0.win 4).xinj (grid0.coords t) y) = G4 m c (((cfg0.win 4).blk t).view.emb y)
  have hy : (y 0).val < 1 := Nat.lt_of_lt_of_le (y 0).isLt ((cfg0.win 4).xsize_le (grid0.coords t) 0)
  have hemb : ((((cfg0.win 4).blk t).view.emb y) 0).val = win0_4.index t (0 : Fin 3) * 1 + 1 * (y 0).val := rfl
  have e : 16 * ((((cfg0.win 4).blk t).view.emb y) 0).val + 15 = t.val := by rw [hemb, e0]; omega
  unfold G4 coreVals
  rw [chain_congr m c e _ t.isLt]
  exact congrArg _ (Subsingleton.elim (α := S1x1x1.Idx) _ _)

/-- An entry of the array is in point `t`'s block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v0_2).slice (win0_4.rect t)).set ↔ _
  rw [View.set_slice_whole, Rect.mem_set_unit]
  exact Iff.rfl

/-- So the array ends holding `G4`: entry `a` is covered by core `a`'s last point. -/
theorem final4 (c : Dev nD) : (dats m 0 c).arrAt 4 cfg0.N = G4 m c :=
  (dats m 0 c).arrAt_eq_of_cover 4 (G4 m c) (flushed_eq4 m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by omega
    obtain ⟨e0, e1, e2⟩ := idx_facts4 ⟨16 * (i 0).val + 15, ht⟩
    refine ⟨⟨16 * (i 0).val + 15, ht⟩, (flush0_4 _).mpr (by show (16 * (i 0).val + 15) % 16 = 15; omega), ?_⟩
    rw [mem_blk4]
    intro a
    match a with
    | ⟨0, _⟩ => show win0_4.index _ (0 : Fin 3) * 1 ≤ (i 0).val ∧ (i 0).val < win0_4.index _ (0 : Fin 3) * 1 + 1
                rw [e0]; show (16 * (i 0).val + 15) / 16 * 1 ≤ (i 0).val ∧ (i 0).val < (16 * (i 0).val + 15) / 16 * 1 + 1; omega
    | ⟨1, _⟩ => show win0_4.index _ (1 : Fin 3) * 1 ≤ (i 1).val ∧ (i 1).val < win0_4.index _ (1 : Fin 3) * 1 + 1
                rw [e1]; omega
    | ⟨2, _⟩ => show win0_4.index _ (2 : Fin 3) * 1 ≤ (i 2).val ∧ (i 2).val < win0_4.index _ (2 : Fin 3) * 1 + 1
                rw [e2]; omega

/-! ## Output 5 -/

/-- The index map of output 5, decided once over the 32 points: block `n / 16` along the first axis, block 0 along the others. -/
theorem idx_facts5 : ∀ t : Fin cfg0.N, win0_5.index t (0 : Fin 3) = t.val / 16 ∧ win0_5.index t (1 : Fin 3) = 0 ∧ win0_5.index t (2 : Fin 3) = 0 :=
  (by decide +kernel : ∀ t : Fin grid0.N, win0_5.index t (0 : Fin 3) = t.val / 16 ∧ win0_5.index t (1 : Fin 3) = 0 ∧ win0_5.index t (2 : Fin 3) = 0)

/-- The array output 5 ends as: entry `a` is what core `a`'s last point left. -/
def G5 (c : Dev nD) : S2x1x1.Idx → Elt F .f32 := fun j => (coreVals m c (j 0).val (j 0).isLt).2.2.2 i000

/-- What a core's last point writes back is its entry of `G5`. -/
theorem flushed_eq5 (c : Dev nD) (t : Fin cfg0.N) (hf : (cfg0.win 5).flush t = true) :
    (dats m 0 c).flushed 5 t = ((cfg0.win 5).blk t).view.read (Elt F) (G5 m c) := by
  have hN : cfg0.N = 32 := N_0
  have h15 : t.val % 16 = 15 := (flush0_5 t).mp hf
  obtain ⟨e0, -, -⟩ := idx_facts5 t
  show (cfg0.win 5).cut (grid0.coords t) ((dats m 0 c).after 5 t) = _
  rw [after0_5, outsAt_eq]
  funext y
  show (chain m c t.val t.isLt).2.2.2 ((cfg0.win 5).xinj (grid0.coords t) y) = G5 m c (((cfg0.win 5).blk t).view.emb y)
  have hy : (y 0).val < 1 := Nat.lt_of_lt_of_le (y 0).isLt ((cfg0.win 5).xsize_le (grid0.coords t) 0)
  have hemb : ((((cfg0.win 5).blk t).view.emb y) 0).val = win0_5.index t (0 : Fin 3) * 1 + 1 * (y 0).val := rfl
  have e : 16 * ((((cfg0.win 5).blk t).view.emb y) 0).val + 15 = t.val := by rw [hemb, e0]; omega
  unfold G5 coreVals
  rw [chain_congr m c e _ t.isLt]
  exact congrArg _ (Subsingleton.elim (α := S1x1x1.Idx) _ _)

/-- An entry of the array is in point `t`'s block iff each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v0_3).slice (win0_5.rect t)).set ↔ _
  rw [View.set_slice_whole, Rect.mem_set_unit]
  exact Iff.rfl

/-- So the array ends holding `G5`: entry `a` is covered by core `a`'s last point. -/
theorem final5 (c : Dev nD) : (dats m 0 c).arrAt 5 cfg0.N = G5 m c :=
  (dats m 0 c).arrAt_eq_of_cover 5 (G5 m c) (flushed_eq5 m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by omega
    obtain ⟨e0, e1, e2⟩ := idx_facts5 ⟨16 * (i 0).val + 15, ht⟩
    refine ⟨⟨16 * (i 0).val + 15, ht⟩, (flush0_5 _).mpr (by show (16 * (i 0).val + 15) % 16 = 15; omega), ?_⟩
    rw [mem_blk5]
    intro a
    match a with
    | ⟨0, _⟩ => show win0_5.index _ (0 : Fin 3) * 1 ≤ (i 0).val ∧ (i 0).val < win0_5.index _ (0 : Fin 3) * 1 + 1
                rw [e0]; show (16 * (i 0).val + 15) / 16 * 1 ≤ (i 0).val ∧ (i 0).val < (16 * (i 0).val + 15) / 16 * 1 + 1; omega
    | ⟨1, _⟩ => show win0_5.index _ (1 : Fin 3) * 1 ≤ (i 1).val ∧ (i 1).val < win0_5.index _ (1 : Fin 3) * 1 + 1
                rw [e1]; omega
    | ⟨2, _⟩ => show win0_5.index _ (2 : Fin 3) * 1 ≤ (i 2).val ∧ (i 2).val < win0_5.index _ (2 : Fin 3) * 1 + 1
                rw [e2]; omega

end Cert.KernelIdeal.KV

end
-- ==== Proof.KTail.lean ====
/-
  The lines after the region, as one function of the four output arrays: the greatest of the two cores' maxima is compared
  with one and the least of their minima with zero; the two cores' weighted sums are added, and their unweighted sums;
  the test selects the weighted total when both comparisons hold, else the unweighted one; the total is divided by the
  number of elements, 2^25.
-/
import proofs.«116982_j21784074126165_2_alg».proof.Proof.KFinal
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx Idealize.ShloMosaic.StableHlo

variable {F : FTy → Type} [FloatOps F]
variable (m : (ℓ : Loc nD τ sig) → Buf (Elt F) ℓ) (ρ : Dev nD → PrngReg)

/-- The result from the four output arrays: sums `o2`, weighted sums `o3`, maxima `o4`, minima `o5`. -/
def tailV (o2 o3 o4 o5 : (⟨S2x1x1, .f32⟩ : BufTy).Contents (Elt F)) : (⟨S_, .f32⟩ : BufTy).Contents (Elt F) :=
  Host.divf
    (select
      (andi
        (cmpf .oeq (Host.reduce (FloatOps.maximumf (F := F) (φ := .f32)) o4 (constant (F := F) S_ .f32 0xFF800000#32) reducesTo_S2x1x1_S_d0_1_2 h_S_)
          (constant (F := F) S_ .f32 0x3F800000#32))
        (cmpf .oeq (Host.reduce (FloatOps.minimumf (F := F) (φ := .f32)) o5 (constant (F := F) S_ .f32 0x7F800000#32) reducesTo_S2x1x1_S_d0_1_2 h_S_)
          (constant (F := F) S_ .f32 0x00000000#32)))
      (Host.reduceAdd o3 (constant (F := F) S_ .f32 0x00000000#32) reducesTo_S2x1x1_S_d0_1_2 h_S_)
      (Host.reduceAdd o2 (constant (F := F) S_ .f32 0x00000000#32) reducesTo_S2x1x1_S_d0_1_2 h_S_))
    (constant (F := F) S_ .f32 0x4C000000#32)

/-- The lines after the region, run from any buffer contents `W`: the result is `tailV` of the four arrays' contents. -/
theorem tail_of (W : Valuation τ sig (Elt F)) :
    StableHlo.after (List.flatten [hostOps1, hostOps1_1, hostOps1_2]) W (Proc.devRef .tc main_v9)
      = tailV (W (Proc.devRef .tc main_v0_0)) (W (Proc.devRef .tc main_v0_1)) (W (Proc.devRef .tc main_v0_2)) (W (Proc.devRef .tc main_v0_3)) := by
  simp only [hostOps1, hostOps1_1, hostOps1_2, List.flatten_cons, List.flatten_nil, List.append_nil, List.cons_append, List.nil_append]
  after_results
  rfl

/-- The result buffer after the whole program: `tailV` of the four output arrays as the region leaves them. -/
theorem tail_eq (c : Dev nD) :
    Pipeline.afterTail₀ cfgs (dats m) 0 (V0 m) [hostOps1, hostOps1_1, hostOps1_2] c main_v9
      = tailV (G2 m c) (G3 m c) (G4 m c) (G5 m c) := by
  unfold Pipeline.afterTail₀
  refine (tail_of _).trans ?_
  have a2 := (Pipeline.withArrays_arr spec0 launch0.win.arr_inj c (V0 m c) (fun w => (dats m 0 c).arrAt w (cfgs 0).N) 2).trans (final2 m c)
  have a3 := (Pipeline.withArrays_arr spec0 launch0.win.arr_inj c (V0 m c) (fun w => (dats m 0 c).arrAt w (cfgs 0).N) 3).trans (final3 m c)
  have a4 := (Pipeline.withArrays_arr spec0 launch0.win.arr_inj c (V0 m c) (fun w => (dats m 0 c).arrAt w (cfgs 0).N) 4).trans (final4 m c)
  have a5 := (Pipeline.withArrays_arr spec0 launch0.win.arr_inj c (V0 m c) (fun w => (dats m 0 c).arrAt w (cfgs 0).N) 5).trans (final5 m c)
  exact congr (congr (congr (congrArg tailV a2) a3) a4) a5

end Cert.KernelIdeal.KV

end
-- ==== Proof.KRun.lean ====
/-
  The idealized kernel's run, read: every weakly fair execution terminates with the result buffer holding the lines after
  the region applied to the four output arrays — each array's entry `a` what core `a`'s running value was after its last
  step — and with both argument arrays as they were.
-/
import proofs.«116982_j21784074126165_2_alg».proof.Proof.KTail

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- The result buffer is no window's array: it is one of the buffers the lines after the region leave. -/
theorem main_v9_rest : main_v9 ∈ Pipeline.restRefs sig (cfgs 0).spec :=
  Pipeline.mem_restRefs_of main_v9 rfl (fun w => by fin_cases w <;> decide)

/-- The run, read. -/
theorem run : θ_run defs (onTc (τ := τ) (main (F := F))) ⟨m, fun _ => 0, ρ⟩ fun r => ∀ c : Dev nD,
      r.2.mem ((c.tc : Thread nD τ).loc main_v9) = tailV (G2 m c) (G3 m c) (G4 m c) (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v9 main_v9_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KV

end
-- ==== Proof.KBlocks.lean ====
/-
  The input blocks. Each argument is a [32, 1, 1024, 1024] array fetched one [1, 1, 1024, 1024] block per point, and point
  `t` (step `t mod 16` of core `t / 16`) fetches block `16·(t / 16) + t mod 16 = t` along the first axis: slab `t`.
-/
import proofs.«116982_j21784074126165_2_alg».proof.Proof.KAcc
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The index map of input 0, decided once over the 32 points: point `t` fetches slab `t`. -/
theorem idx_in0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

/-- Point `t`'s block of argument 0, at `(0, 0, r, q)`, is the argument at `(t, 0, r, q)`. -/
theorem blk0_apply (c : Dev nD) (t : Fin cfg0.N) (ht : t.val < 32) (r q : Fin 1024) :
    blk0 m c t (ix4 (0 : Fin 1) (0 : Fin 1) r q)
      = (m ((c : Thread nD τ).loc main_arg0) : S32x1x1024x1024.Idx → Elt F .f32) (ix4 (⟨t.val, ht⟩ : Fin 32) (0 : Fin 1) r q) := by
  obtain ⟨e0, e1, e2, e3⟩ := idx_in0 t
  show (m ((c : Thread nD τ).loc main_arg0) : S32x1x1024x1024.Idx → Elt F .f32)
      (((cfg0.win 0).blk t).view.emb (ix4 (0 : Fin 1) (0 : Fin 1) r q)) = _
  refine congrArg _ (funext fun a => Fin.ext ?_)
  match a with
  | ⟨0, _⟩ => show win0_0.index t (0 : Fin 4) * 1 + 1 * 0 = t.val; rw [e0]; omega
  | ⟨1, _⟩ => show win0_0.index t (1 : Fin 4) * 1 + 1 * 0 = 0; rw [e1]
  | ⟨2, _⟩ => show win0_0.index t (2 : Fin 4) * 1024 + 1 * r.val = r.val; rw [e2]; omega
  | ⟨3, _⟩ => show win0_0.index t (3 : Fin 4) * 1024 + 1 * q.val = q.val; rw [e3]; omega

/-- The index map of input 1, decided once over the 32 points: point `t` fetches slab `t`. -/
theorem idx_in1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- Point `t`'s block of argument 1, at `(0, 0, r, q)`, is the argument at `(t, 0, r, q)`. -/
theorem blk1_apply (c : Dev nD) (t : Fin cfg0.N) (ht : t.val < 32) (r q : Fin 1024) :
    blk1 m c t (ix4 (0 : Fin 1) (0 : Fin 1) r q)
      = (m ((c : Thread nD τ).loc main_arg1) : S32x1x1024x1024.Idx → Elt F .f32) (ix4 (⟨t.val, ht⟩ : Fin 32) (0 : Fin 1) r q) := by
  obtain ⟨e0, e1, e2, e3⟩ := idx_in1 t
  show (m ((c : Thread nD τ).loc main_arg1) : S32x1x1024x1024.Idx → Elt F .f32)
      (((cfg0.win 1).blk t).view.emb (ix4 (0 : Fin 1) (0 : Fin 1) r q)) = _
  refine congrArg _ (funext fun a => Fin.ext ?_)
  match a with
  | ⟨0, _⟩ => show win0_1.index t (0 : Fin 4) * 1 + 1 * 0 = t.val; rw [e0]; omega
  | ⟨1, _⟩ => show win0_1.index t (1 : Fin 4) * 1 + 1 * 0 = 0; rw [e1]
  | ⟨2, _⟩ => show win0_1.index t (2 : Fin 4) * 1024 + 1 * r.val = r.val; rw [e2]; omega
  | ⟨3, _⟩ => show win0_1.index t (3 : Fin 4) * 1024 + 1 * q.val = q.val; rw [e3]; omega

end Cert.KernelIdeal.KV

end
-- ==== Proof.LibSoftplus.lean ====
/-
  softplus on the extended reals, and the two ways programs spell it.

  `softplus z = max z 0 + log (1 + e^{−|z|})`, the overflow-free form, with `|z| = max z (−z)`.  A compiled `logaddexp(z, 0)`
  wraps that sum in a test for a NaN difference, `z − 0 ≠ z − 0`, whose other branch is `z + 0`; no extended real differs
  from itself, so the test answers 0 whether it is the ordered or the unordered comparison, and the sum is taken.  A host
  program negates `|z − 0|`; a kernel body subtracts it from the zero word.  Both are `softplus z`: first for one number
  (the zero word written as its f32 pattern), then at an index of a vector of any shape.  Nothing here mentions a program.
-/
import Idealize.ShloMosaic.PureOps.Ideal.Laws
import Idealize.ShloMosaic.Lib.ValueIdx

noncomputable section

namespace Cert.Softplus

open Idealize.ShloMosaic Idealize.ShloMosaic.ValueIdx

/-- `softplus z = max z 0 + log (1 + e^{−|z|})`, with `|z| = max z (−z)`. -/
def softplus (z : EReal) : EReal := max z 0 + Ideal.log1p (Ideal.exp (-(max z (-z))))

/-- No extended real differs from itself: the unordered test `d ≠ d` answers 0. -/
theorem cmp_une_self (d : EReal) : Ideal.cmp .une d d = 0#1 := by
  simp [Ideal.cmp]

/-- The ordered test `d ≠ d` answers 0 as well. -/
theorem cmp_one_self (d : EReal) : Ideal.cmp .one d d = 0#1 := by
  simp [Ideal.cmp]

/-- The spelling with a negation: guard, `z + 0` on the dead branch, `max z 0 + log1p (exp (−|z − 0|))` on the live one. -/
theorem softplus_of_neg (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32))))))
      = softplus z := by
  rw [cmp_une_self, select_zero, Ideal.ofBits_zero_f32, sub_zero]
  rfl

/-- The spelling with a subtraction from zero: `0 − |z − 0|` in place of `−|z − 0|`, under the ordered guard. -/
theorem softplus_of_zero_sub (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = softplus z := by
  rw [cmp_one_self, select_zero, Ideal.ofBits_zero_f32, sub_zero, zero_sub]
  rfl

/-! ## At an index of a vector -/

variable {s : Shape}

/-- A host program's softplus of a vector `x`, over any vector `z` that reads as the zero word everywhere (the zero
    splat), is `softplus (x j)` at every index `j`. -/
theorem host_softplus_apply (x z : FVec Ideal s .f32) (hz : ∀ j, z j = Ideal.ofBits .f32 0x00000000#32) (j : s.Idx) :
    select (cmpf .une (subf x z) (subf x z)) (addf x z)
        (addf (maximumf x z) (Host.log1p (Host.exp (Host.negf (Host.absf (subf x z)))))) j
      = softplus (x j) := by
  show Scalar.select (Ideal.cmp .une (x j - z j) (x j - z j)) (x j + z j)
      (max (x j) (z j) + Ideal.log1p (Ideal.exp (-(max (x j - z j) (-(x j - z j)))))) = _
  rw [hz j]
  exact softplus_of_neg (x j)

/-- A kernel body's softplus of a vector `x`, its zeros the broadcast zero word, is `softplus (x j)` at every index `j`. -/
theorem kernel_softplus_apply (x : FVec Ideal s .f32) (j : s.Idx) :
    select
        (cmpf .one (subf x (broadcast s (FloatOps.ofBits (F := Ideal) .f32 0x00000000#32)))
          (subf x (broadcast s (FloatOps.ofBits (F := Ideal) .f32 0x00000000#32))))
        (addf x (broadcast s (FloatOps.ofBits (F := Ideal) .f32 0x00000000#32)))
        (addf (maximumf x (broadcast s (FloatOps.ofBits (F := Ideal) .f32 0x00000000#32)))
          (log1p (exp (subf (broadcast s (FloatOps.ofBits (F := Ideal) .f32 0x00000000#32))
            (absf (subf x (broadcast s (FloatOps.ofBits (F := Ideal) .f32 0x00000000#32)))))))) j
      = softplus (x j) :=
  softplus_of_zero_sub (x j)

end Cert.Softplus

end
-- ==== Proof.Spec.lean ====
/-
  The loss, one element at a time, on the extended reals.

  For a prediction `p` and a target `t` the unweighted loss is `softplus p − p·t`. The target is thresholded at one half
  to a mask of zeros and ones; the mask is dilated and eroded over a 5×5 window, and an element whose dilated and eroded
  values differ (an edge of the mask) is weighted one tenth, every other element one. The weighting is applied only when
  the greatest target value of the whole array is one and the least is zero. The result is the sum of the (weighted)
  losses divided by the number of elements.
-/
import Idealize.ShloMosaic.PureOps.Ideal.Laws
import Idealize.ShloMosaic.Lib.ValueIdx
import proofs.«116982_j21784074126165_2_alg».proof.Proof.LibSoftplus

noncomputable section

namespace Cert.Spec

open Idealize.ShloMosaic

/-- One element's unweighted loss: `softplus p − p·t`. -/
def lossAt (p t : EReal) : EReal := Cert.Softplus.softplus p - p * t

/-- The answer, as one bit, to "is the target value above one half?". -/
def maskBit (t : EReal) : BitVec 1 := Ideal.cmp .ogt t (Ideal.ofBits .f32 0x3F000000#32)

/-- One element of the mask: one where the target is above one half, zero elsewhere. -/
def maskAt (t : EReal) : EReal := (((maskBit t).toNat : ℝ) : EReal)

/-- The weight of an element from its dilated value `d` and its eroded value `e`: one tenth (the f32 nearest to it)
    where `d − e` is positive, one elsewhere. -/
def weightAt (d e : EReal) : EReal :=
  Scalar.select (Ideal.cmp .ogt (d - e) (Ideal.ofBits .f32 0x00000000#32))
    (Ideal.ofBits .f32 0x3DCCCCCD#32) (Ideal.ofBits .f32 0x3F800000#32)

/-- The global test, as one bit: the greatest target value `M` is one and the least `m` is zero. -/
def condBit (M m : EReal) : BitVec 1 :=
  IntOp.andi (Ideal.cmp .oeq M (Ideal.ofBits .f32 0x3F800000#32)) (Ideal.cmp .oeq m (Ideal.ofBits .f32 0x00000000#32))

end Cert.Spec

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KRead.lean ====
/-
  One grid point's slabs read at an element, and its reductions of a slab read as one number, on the extended reals.

  A point's block [1, 1, 1024, 1024] viewed as a slab reads at (r, c) the block at (0, 0, r, c). The slab of losses
  reads there the loss of the prediction and the target at that place, the mask the mask of the target, the weight the
  edge weight of the dilated and the eroded mask, the weighted loss their product. A slab reduced along the lanes and
  then down the rows is, for the sum, the double sum of its entries; for the maximum (minimum) it is characterised by
  its upper (lower) bounds: exactly the numbers that bound every entry.
-/
import proofs.«116982_j21784074126165_2_alg».proof.Proof.KSlab
import proofs.«116982_j21784074126165_2_alg».proof.Proof.Spec
import proofs.«116982_j21784074126165_2_alg».proof.Proof.LibSoftplus
import proofs.«116982_j21784074126165_2_alg».proof.Proof.LibRowOps
import proofs.«116982_j21784074126165_2_alg».proof.Proof.LibMinOps
import proofs.«116982_j21784074126165_2_alg».proof.Proof.LibKeepdims
import Idealize.ShloMosaic.Lib.ValueLayout
import Idealize.ShloMosaic.PureOps.Ideal.Laws

noncomputable section

open scoped BigOperators

namespace Cert.KernelIdeal.KR

open Cert.KernelIdeal Cert.KernelIdeal.Gen Cert.KernelIdeal.KV Idealize.ShloMosaic Idealize.ShloMosaic.ValueIdx

/-- The one index of a one-element block. -/
abbrev i000 : S1x1x1.Idx := ix3 (0 : Fin 1) (0 : Fin 1) (0 : Fin 1)

/-! ## The slabs at an element -/

/-- A [1, 1, 1024, 1024] block viewed as a slab reads, at (r, c), the block at (0, 0, r, c): the two row-major
    positions are ((0·1 + 0)·1024 + r)·1024 + c and r·1024 + c. -/
theorem cast_apply (x : Vec Ideal S1x1x1024x1024 .f32) (r c : Fin 1024) :
    shapeCast S1024x1024 x shapeCasts_S1x1x1024x1024_S1024x1024 (ix2 r c) = x (ix4 (0 : Fin 1) (0 : Fin 1) r c) :=
  shapeCast_apply x _ _ _ (by
    rw [Shape.rowMajor_val_four, Shape.rowMajor_val_two]
    show ((0 * 1 + 0) * 1024 + r.val) * 1024 + c.val = r.val * 1024 + c.val
    omega)

theorem tgtV_apply (x1 : Vec Ideal S1x1x1024x1024 .f32) (r c : Fin 1024) :
    tgtV x1 (ix2 r c) = x1 (ix4 (0 : Fin 1) (0 : Fin 1) r c) :=
  cast_apply x1 r c

theorem lossV_apply (x0 x1 : Vec Ideal S1x1x1024x1024 .f32) (r c : Fin 1024) :
    lossV x0 x1 (ix2 r c)
      = Cert.Spec.lossAt (x0 (ix4 (0 : Fin 1) (0 : Fin 1) r c)) (x1 (ix4 (0 : Fin 1) (0 : Fin 1) r c)) := by
  have hs := Cert.Softplus.kernel_softplus_apply
    (shapeCast S1024x1024 x0 shapeCasts_S1x1x1024x1024_S1024x1024) (ix2 r c)
  have step : lossV x0 x1 (ix2 r c)
      = Cert.Softplus.softplus (shapeCast S1024x1024 x0 shapeCasts_S1x1x1024x1024_S1024x1024 (ix2 r c))
        - shapeCast S1024x1024 x0 shapeCasts_S1x1x1024x1024_S1024x1024 (ix2 r c) * tgtV x1 (ix2 r c) :=
    congrArg (fun a => a - shapeCast S1024x1024 x0 shapeCasts_S1x1x1024x1024_S1024x1024 (ix2 r c) * tgtV x1 (ix2 r c)) hs
  rw [step, cast_apply, tgtV_apply]
  rfl

/-- A one-bit word widened to 32 bits and read as a signed integer is the bit as a number. -/
theorem bit_toInt (b : BitVec 1) : (((b.setWidth 32).toInt : ℝ) : EReal) = ((b.toNat : ℝ) : EReal) := by
  rcases BitVec.eq_zero_or_eq_one b with rfl | rfl <;> simp

theorem maskV_apply (x1 : Vec Ideal S1x1x1024x1024 .f32) (r c : Fin 1024) :
    maskV x1 (ix2 r c) = Cert.Spec.maskAt (x1 (ix4 (0 : Fin 1) (0 : Fin 1) r c)) := by
  show ((((Ideal.cmp .ogt (tgtV x1 (ix2 r c)) (Ideal.ofBits .f32 0x3F000000#32)).setWidth 32).toInt : ℝ) : EReal) = _
  rw [bit_toInt, tgtV_apply]
  rfl

theorem weightV_apply (x1 : Vec Ideal S1x1x1024x1024 .f32) (r c : Fin 1024) :
    weightV x1 (ix2 r c) = Cert.Spec.weightAt (dilV x1 (ix2 r c)) (eroV x1 (ix2 r c)) := by
  unfold weightV
  generalize dilV x1 = d
  generalize eroV x1 = e
  rfl

theorem wlossV_apply (x0 x1 : Vec Ideal S1x1x1024x1024 .f32) (r c : Fin 1024) :
    wlossV x0 x1 (ix2 r c)
      = Cert.Spec.lossAt (x0 (ix4 (0 : Fin 1) (0 : Fin 1) r c)) (x1 (ix4 (0 : Fin 1) (0 : Fin 1) r c))
        * Cert.Spec.weightAt (dilV x1 (ix2 r c)) (eroV x1 (ix2 r c)) := by
  unfold wlossV
  rw [mulf_apply, lossV_apply, weightV_apply]

/-! ## A slab reduced to one number -/

/-- The word 0xFF800000 is −∞. -/
theorem negInf_eq_bot : Ideal.ofBits .f32 0xFF800000#32 = (⊥ : EReal) := by simp [Ideal.ofBits, Ideal.ieee]

/-- The maximum down the rows at lane `q`: the fold of `max`, from the accumulator's value, over the column's entries. -/
theorem rowsMax_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) (fun r => src (ix2 r q)) := by
  refine (Ideal.multiReduction_maximumf_single src acc h hφ hacc (ix1 q)).trans ?_
  show (Finset.univ : Finset (Fin a)).fold max (Ideal.ofBits φ acc) (fun r => src (h.lift (ix1 q) r)) = _
  refine congrArg (fun f => (Finset.univ : Finset (Fin a)).fold max (Ideal.ofBits φ acc) f) (funext fun r => ?_)
  exact congrArg src (funext fun ax => Fin.ext (by match ax with | ⟨0, _⟩ => rfl | ⟨1, _⟩ => rfl))

/-- A slab summed along the lanes and then down the rows is the double sum of its entries. -/
theorem sum2d_apply (v : FVec Ideal S1024x1024 .f32) :
    sum2d v i000 = ∑ r : Fin 1024, ∑ c : Fin 1024, v (ix2 r c) := by
  unfold sum2d
  rw [shapeCast_ab_1ab_apply, Cert.Keepdims.shapeCast_a_a1_apply]
  refine (Cert.MinOps.rowsSum_apply _ _ reduces_S1024x1_S1 _ _ (0 : Fin 1)).trans ?_
  refine Finset.sum_congr rfl fun r _ => ?_
  rw [Cert.Keepdims.shapeCast_a_a1_apply]
  exact Cert.RowOps.laneSum_apply v _ reduces_S1024x1024_S1024 _ _ r

/-- A slab's greatest value, along the lanes and then down the rows, is the fold of `max` from −∞ over the rows of the
    fold of `max` from −∞ over each row's entries. -/
theorem max2d_apply (v : FVec Ideal S1024x1024 .f32) :
    max2d v i000 = (Finset.univ : Finset (Fin 1024)).fold max ⊥
      (fun r => (Finset.univ : Finset (Fin 1024)).fold max ⊥ (fun c => v (ix2 r c))) := by
  unfold max2d
  rw [shapeCast_ab_1ab_apply, Cert.Keepdims.shapeCast_a_a1_apply]
  refine (rowsMax_apply _ _ reduces_S1024x1_S1 _ _ (0 : Fin 1)).trans ?_
  rw [negInf_eq_bot]
  refine congrArg (fun f => (Finset.univ : Finset (Fin 1024)).fold max ⊥ f) (funext fun r => ?_)
  rw [Cert.Keepdims.shapeCast_a_a1_apply]
  refine (Cert.RowOps.laneMax_apply v _ reduces_S1024x1024_S1024 _ _ r).trans ?_
  rw [negInf_eq_bot]

/-- A slab's greatest value is at most `z` iff every entry is. -/
theorem max2d_le (v : FVec Ideal S1024x1024 .f32) (z : EReal) :
    max2d v i000 ≤ z ↔ ∀ r c, v (ix2 r c) ≤ z := by
  rw [max2d_apply]
  simp only [Finset.fold_max_le, bot_le, true_and, Finset.mem_univ, true_imp_iff]

/-- A slab's least value, likewise, is the fold of `min` from +∞ over the rows of the fold of `min` from +∞ over each
    row's entries. -/
theorem min2d_apply (v : FVec Ideal S1024x1024 .f32) :
    min2d v i000 = (Finset.univ : Finset (Fin 1024)).fold min ⊤
      (fun r => (Finset.univ : Finset (Fin 1024)).fold min ⊤ (fun c => v (ix2 r c))) := by
  unfold min2d
  rw [shapeCast_ab_1ab_apply, Cert.Keepdims.shapeCast_a_a1_apply]
  refine (Cert.MinOps.rowsMin_apply _ _ reduces_S1024x1_S1 _ _ (0 : Fin 1)).trans ?_
  rw [Cert.MinOps.posInf_eq_top]
  refine congrArg (fun f => (Finset.univ : Finset (Fin 1024)).fold min ⊤ f) (funext fun r => ?_)
  rw [Cert.Keepdims.shapeCast_a_a1_apply]
  refine (Cert.MinOps.laneMin_apply v _ reduces_S1024x1024_S1024 _ _ r).trans ?_
  rw [Cert.MinOps.posInf_eq_top]

/-- `z` is at most a slab's least value iff it is at most every entry. -/
theorem le_min2d (v : FVec Ideal S1024x1024 .f32) (z : EReal) :
    z ≤ min2d v i000 ↔ ∀ r c, z ≤ v (ix2 r c) := by
  rw [min2d_apply]
  simp only [Finset.le_fold_min, le_top, true_and, Finset.mem_univ, true_imp_iff]

theorem stepSum_apply (xo : Vec Ideal S1x1x1 .f32) (v : FVec Ideal S1024x1024 .f32) :
    stepSum xo v i000 = xo i000 + ∑ r : Fin 1024, ∑ c : Fin 1024, v (ix2 r c) := by
  unfold stepSum
  rw [addf_apply, shapeCast_self, sum2d_apply]

theorem stepMax_le (xo : Vec Ideal S1x1x1 .f32) (v : FVec Ideal S1024x1024 .f32) (z : EReal) :
    stepMax xo v i000 ≤ z ↔ xo i000 ≤ z ∧ ∀ r c, v (ix2 r c) ≤ z := by
  unfold stepMax
  rw [maximumf_apply, shapeCast_self, max_le_iff, max2d_le]

theorem le_stepMin (xo : Vec Ideal S1x1x1 .f32) (v : FVec Ideal S1024x1024 .f32) (z : EReal) :
    z ≤ stepMin xo v i000 ↔ z ≤ xo i000 ∧ ∀ r c, z ≤ v (ix2 r c) := by
  unfold stepMin
  rw [minimumf_apply, shapeCast_self, le_min_iff, le_min2d]

/-! ## The values a core's first point starts from -/

theorem zero1_apply : (zero1 : Vec Ideal S1x1x1 .f32) i000 = 0 := Ideal.ofBits_zero_f32

theorem negInf1_apply : (negInf1 : Vec Ideal S1x1x1 .f32) i000 = ⊥ := negInf_eq_bot

theorem posInf1_apply : (posInf1 : Vec Ideal S1x1x1 .f32) i000 = ⊤ := Cert.MinOps.posInf_eq_top

end Cert.KernelIdeal.KR

end
-- ==== Proof.LibRunFold.lean ====
/-
  A running value restarted every sixteen steps.

  A sequence indexed by the steps `0 … N − 1` that restarts at every step divisible by 16 and otherwise adds the step's
  contribution to the value before: after step `n` it is the sum of the contributions of the steps `n − n mod 16 … n`, and
  after the last step of group `a` (step `16a + 15`) the sum of the group's sixteen contributions. The same holds of a
  property carried along: one that at a restart is the step's own condition and otherwise the conjunction of the step
  before's with the step's own, holds after step `16a + 15` exactly when all sixteen conditions of the group hold (this is
  how a running maximum or minimum is carried, by its upper or lower bounds). Nothing here mentions a program.
-/
import Mathlib.Algebra.BigOperators.Fin
import Mathlib.Algebra.BigOperators.Intervals
import Mathlib.Tactic.Ring

namespace Cert.RunFold

open Finset

/-- After step `n`: the sum over the steps of `n`'s group up to `n`. -/
theorem run_sum {M : Type*} [AddCommMonoid M] (N : ℕ) (x f : (n : ℕ) → n < N → M)
    (hfirst : ∀ n h, n % 16 = 0 → x n h = f n h)
    (hnext : ∀ n (h : n + 1 < N), ¬(n + 1) % 16 = 0 → x (n + 1) h = x n (Nat.lt_of_succ_lt h) + f (n + 1) h) :
    ∀ n (h : n < N), x n h = ∑ j ∈ range (n % 16 + 1), (if hk : n - n % 16 + j < N then f (n - n % 16 + j) hk else 0) := by
  intro n
  induction n with
  | zero =>
    intro h
    rw [hfirst 0 h rfl]
    simp [h]
  | succ n ih =>
    intro h
    by_cases h0 : (n + 1) % 16 = 0
    · rw [hfirst (n + 1) h h0, h0]
      simp [h]
    · have e1 : (n + 1) % 16 = n % 16 + 1 := by omega
      have e2 : n + 1 - (n % 16 + 1) = n - n % 16 := by omega
      rw [hnext n h h0, ih (Nat.lt_of_succ_lt h), e1, sum_range_succ _ (n % 16 + 1), e2]
      congr 1
      have e3 : n - n % 16 + (n % 16 + 1) = n + 1 := by omega
      simp only [e3]
      rw [dif_pos h]

/-- After the last step of group `a`: the sum of the group's sixteen contributions. -/
theorem run_sum_last {M : Type*} [AddCommMonoid M] (N : ℕ) (x f : (n : ℕ) → n < N → M)
    (hfirst : ∀ n h, n % 16 = 0 → x n h = f n h)
    (hnext : ∀ n (h : n + 1 < N), ¬(n + 1) % 16 = 0 → x (n + 1) h = x n (Nat.lt_of_succ_lt h) + f (n + 1) h)
    (a : ℕ) (h : 16 * a + 15 < N) :
    x (16 * a + 15) h = ∑ j : Fin 16, f (16 * a + j.val) (by have := j.isLt; omega) := by
  rw [run_sum N x f hfirst hnext (16 * a + 15) h]
  have e1 : (16 * a + 15) % 16 = 15 := by omega
  have e2 : 16 * a + 15 - 15 = 16 * a := by omega
  rw [e1, e2, ← Fin.sum_univ_eq_sum_range (fun j => if hk : 16 * a + j < N then f (16 * a + j) hk else 0) 16]
  refine sum_congr rfl fun j _ => ?_
  rw [dif_pos]

/-- A property carried along: after step `n` it holds iff every step of `n`'s group up to `n` meets its condition. -/
theorem run_all (N : ℕ) (X Q : (n : ℕ) → n < N → Prop)
    (hfirst : ∀ n h, n % 16 = 0 → (X n h ↔ Q n h))
    (hnext : ∀ n (h : n + 1 < N), ¬(n + 1) % 16 = 0 → (X (n + 1) h ↔ X n (Nat.lt_of_succ_lt h) ∧ Q (n + 1) h)) :
    ∀ n (h : n < N), X n h ↔ ∀ j, j < n % 16 + 1 → ∀ hk : n - n % 16 + j < N, Q (n - n % 16 + j) hk := by
  intro n
  induction n with
  | zero =>
    intro h
    rw [hfirst 0 h rfl]
    constructor
    · intro hq j hj hk
      have : j = 0 := by omega
      subst this
      exact hq
    · intro hall
      exact hall 0 (by omega) h
  | succ n ih =>
    intro h
    by_cases h0 : (n + 1) % 16 = 0
    · rw [hfirst (n + 1) h h0]
      constructor
      · intro hq j hj hk
        have hj0 : j = 0 := by omega
        subst hj0
        have e : n + 1 - (n + 1) % 16 + 0 = n + 1 := by omega
        simp only [e]
        exact hq
      · intro hall
        have e : n + 1 - (n + 1) % 16 + 0 = n + 1 := by omega
        have := hall 0 (by omega) (by omega)
        simp only [e] at this
        exact this
    · have e1 : (n + 1) % 16 = n % 16 + 1 := by omega
      have e2 : n + 1 - (n + 1) % 16 = n - n % 16 := by omega
      rw [hnext n h h0, ih (Nat.lt_of_succ_lt h)]
      constructor
      · rintro ⟨hprev, hq⟩ j hj hk
        by_cases hjl : j < n % 16 + 1
        · have := hprev j hjl (by omega)
          simp only [e2]
          exact this
        · have hje : j = n % 16 + 1 := by omega
          subst hje
          have e3 : n + 1 - (n + 1) % 16 + (n % 16 + 1) = n + 1 := by omega
          simp only [e3]
          exact hq
      · intro hall
        refine ⟨fun j hj hk => ?_, ?_⟩
        · have := hall j (by omega) (by omega)
          simp only [e2] at this
          exact this
        · have e3 : n + 1 - (n + 1) % 16 + (n % 16 + 1) = n + 1 := by omega
          have := hall (n % 16 + 1) (by omega) (by omega)
          simp only [e3] at this
          exact this

/-- After the last step of group `a`: all sixteen conditions of the group. -/
theorem run_all_last (N : ℕ) (X Q : (n : ℕ) → n < N → Prop)
    (hfirst : ∀ n h, n % 16 = 0 → (X n h ↔ Q n h))
    (hnext : ∀ n (h : n + 1 < N), ¬(n + 1) % 16 = 0 → (X (n + 1) h ↔ X n (Nat.lt_of_succ_lt h) ∧ Q (n + 1) h))
    (a : ℕ) (h : 16 * a + 15 < N) :
    X (16 * a + 15) h ↔ ∀ j : Fin 16, Q (16 * a + j.val) (by have := j.isLt; omega) := by
  rw [run_all N X Q hfirst hnext (16 * a + 15) h]
  have e1 : (16 * a + 15) % 16 = 15 := by omega
  have e2 : 16 * a + 15 - (16 * a + 15) % 16 = 16 * a := by omega
  constructor
  · intro hall j
    have := hall j.val (by have := j.isLt; omega) (by have := j.isLt; omega)
    simp only [e2] at this
    exact this
  · intro hall j hj hk
    have := hall ⟨j, by omega⟩
    simp only [e2]
    exact this

end Cert.RunFold
-- ==== Proof.KIdeal.lean ====
/-
  The four running values on the extended reals, in closed form.

  After a core's sixteenth step its running sum is the sum, over the core's sixteen slabs, of the slab's sum — of the
  losses `softplus p − p·t` for the first output, of the weighted losses for the second — and its running maximum
  (minimum) of the targets is below (above) a bound exactly when every target entry of the sixteen slabs is. Slab `n` of
  a point's blocks is slab `n` of the argument arrays.
-/
import proofs.«116982_j21784074126165_2_alg».proof.Proof.KFinal
import proofs.«116982_j21784074126165_2_alg».proof.Proof.KBlocks
import proofs.«116982_j21784074126165_2_alg».proof.Proof.KRead
import proofs.«116982_j21784074126165_2_alg».proof.Proof.LibRunFold
import proofs.«116982_j21784074126165_2_alg».proof.Proof.Spec

set_option maxRecDepth 16384

noncomputable section

open Idealize.ShloMosaic Idealize.ShloMosaic.TcCoe Idealize.SL.Sem

namespace Cert.KernelIdeal.KI

open Cert.KernelIdeal Cert.KernelIdeal.Gen Cert.KernelIdeal.KV Idealize.ShloMosaic.ValueIdx

variable (m : (ℓ : Loc nD τ sig) → Buf (Elt Ideal) ℓ)

/-- The predictions and the targets, as arrays of extended reals. -/
abbrev P (c : Dev nD) : FVec Ideal S32x1x1024x1024 .f32 := m ((c : Thread nD τ).loc main_arg0)
abbrev T (c : Dev nD) : FVec Ideal S32x1x1024x1024 .f32 := m ((c : Thread nD τ).loc main_arg1)

/-- The sum of point `n`'s slab of losses, and of weighted losses. -/
def lossSum (c : Dev nD) (n : ℕ) (h : n < cfg0.N) : EReal :=
  ∑ r : Fin 1024, ∑ q : Fin 1024, lossV (blk0 m c ⟨n, h⟩) (blk1 m c ⟨n, h⟩) (ix2 r q)
def wlossSum (c : Dev nD) (n : ℕ) (h : n < cfg0.N) : EReal :=
  ∑ r : Fin 1024, ∑ q : Fin 1024, wlossV (blk0 m c ⟨n, h⟩) (blk1 m c ⟨n, h⟩) (ix2 r q)

/-! ## The two running sums -/

theorem loss_first (c : Dev nD) (n : ℕ) (h : n < cfg0.N) (h0 : n % 16 = 0) :
    (chain m c n h).1 KV.i000 = lossSum m c n h := by
  rw [chain_first m c ⟨n, h⟩ h0]
  show stepSum zero1 (lossV (blk0 m c ⟨n, h⟩) (blk1 m c ⟨n, h⟩)) KV.i000 = _
  refine (KR.stepSum_apply _ _).trans ?_
  rw [KR.zero1_apply, zero_add]
  rfl

theorem loss_next (c : Dev nD) (n : ℕ) (h : n + 1 < cfg0.N) (h0 : ¬(n + 1) % 16 = 0) :
    (chain m c (n + 1) h).1 KV.i000 = (chain m c n (Nat.lt_of_succ_lt h)).1 KV.i000 + lossSum m c (n + 1) h := by
  rw [chain_next m c ⟨n + 1, h⟩ h0]
  show stepSum (chain m c n _).1 (lossV (blk0 m c ⟨n + 1, h⟩) (blk1 m c ⟨n + 1, h⟩)) KV.i000 = _
  exact KR.stepSum_apply _ _

theorem wloss_first (c : Dev nD) (n : ℕ) (h : n < cfg0.N) (h0 : n % 16 = 0) :
    (chain m c n h).2.1 KV.i000 = wlossSum m c n h := by
  rw [chain_first m c ⟨n, h⟩ h0]
  show stepSum zero1 (wlossV (blk0 m c ⟨n, h⟩) (blk1 m c ⟨n, h⟩)) KV.i000 = _
  refine (KR.stepSum_apply _ _).trans ?_
  rw [KR.zero1_apply, zero_add]
  rfl

theorem wloss_next (c : Dev nD) (n : ℕ) (h : n + 1 < cfg0.N) (h0 : ¬(n + 1) % 16 = 0) :
    (chain m c (n + 1) h).2.1 KV.i000 = (chain m c n (Nat.lt_of_succ_lt h)).2.1 KV.i000 + wlossSum m c (n + 1) h := by
  rw [chain_next m c ⟨n + 1, h⟩ h0]
  show stepSum (chain m c n _).2.1 (wlossV (blk0 m c ⟨n + 1, h⟩) (blk1 m c ⟨n + 1, h⟩)) KV.i000 = _
  exact KR.stepSum_apply _ _

/-- Core `a`'s final sum of losses: the sum of its sixteen slab sums. -/
theorem core_loss (c : Dev nD) (a : ℕ) (ha : a < 2) :
    (coreVals m c a ha).1 KV.i000
      = ∑ j : Fin 16, lossSum m c (16 * a + j.val) (by rw [show cfg0.N = 32 from N_0]; have := j.isLt; omega) :=
  Cert.RunFold.run_sum_last cfg0.N (fun n h => (chain m c n h).1 KV.i000) (lossSum m c) (loss_first m c) (loss_next m c) a
    (by rw [show cfg0.N = 32 from N_0]; omega)

theorem core_wloss (c : Dev nD) (a : ℕ) (ha : a < 2) :
    (coreVals m c a ha).2.1 KV.i000
      = ∑ j : Fin 16, wlossSum m c (16 * a + j.val) (by rw [show cfg0.N = 32 from N_0]; have := j.isLt; omega) :=
  Cert.RunFold.run_sum_last cfg0.N (fun n h => (chain m c n h).2.1 KV.i000) (wlossSum m c) (wloss_first m c) (wloss_next m c) a
    (by rw [show cfg0.N = 32 from N_0]; omega)

/-- A slab sum of losses, over the argument arrays: slab `k` of both. -/
theorem lossSum_eq (c : Dev nD) (n : ℕ) (h : n < cfg0.N) (k : Fin 32) (hk : k.val = n) :
    lossSum m c n h = ∑ r : Fin 1024, ∑ q : Fin 1024,
      Cert.Spec.lossAt (P m c (ix4 k (0 : Fin 1) r q)) (T m c (ix4 k (0 : Fin 1) r q)) := by
  subst hk
  unfold lossSum
  refine Finset.sum_congr rfl fun r _ => Finset.sum_congr rfl fun q _ => ?_
  refine (KR.lossV_apply _ _ r q).trans ?_
  rw [blk0_apply m c ⟨k.val, h⟩ k.isLt r q, blk1_apply m c ⟨k.val, h⟩ k.isLt r q]

/-- A slab sum of weighted losses: the weight from the slab's dilated and eroded mask. -/
theorem wlossSum_eq (c : Dev nD) (n : ℕ) (h : n < cfg0.N) (k : Fin 32) (hk : k.val = n) :
    wlossSum m c n h = ∑ r : Fin 1024, ∑ q : Fin 1024,
      Cert.Spec.lossAt (P m c (ix4 k (0 : Fin 1) r q)) (T m c (ix4 k (0 : Fin 1) r q))
        * Cert.Spec.weightAt (dilV (blk1 m c ⟨n, h⟩) (ix2 r q)) (eroV (blk1 m c ⟨n, h⟩) (ix2 r q)) := by
  subst hk
  unfold wlossSum
  refine Finset.sum_congr rfl fun r _ => Finset.sum_congr rfl fun q _ => ?_
  refine (KR.wlossV_apply _ _ r q).trans ?_
  rw [blk0_apply m c ⟨k.val, h⟩ k.isLt r q, blk1_apply m c ⟨k.val, h⟩ k.isLt r q]

/-- The mask of point `n`'s target block: the thresholded slab `k` of the targets. -/
theorem maskV_blk (c : Dev nD) (n : ℕ) (h : n < cfg0.N) (k : Fin 32) (hk : k.val = n) (r q : Fin 1024) :
    maskV (blk1 m c ⟨n, h⟩) (ix2 r q) = Cert.Spec.maskAt (T m c (ix4 k (0 : Fin 1) r q)) := by
  subst hk
  refine (KR.maskV_apply _ r q).trans ?_
  rw [blk1_apply m c ⟨k.val, h⟩ k.isLt r q]

/-! ## The running maximum and minimum, by their bounds -/

/-- Every target entry of point `n`'s slab is at most `z` (at least `z`). -/
def slabLe (c : Dev nD) (z : EReal) (n : ℕ) (h : n < cfg0.N) : Prop := ∀ r q : Fin 1024, tgtV (blk1 m c ⟨n, h⟩) (ix2 r q) ≤ z
def slabGe (c : Dev nD) (z : EReal) (n : ℕ) (h : n < cfg0.N) : Prop := ∀ r q : Fin 1024, z ≤ tgtV (blk1 m c ⟨n, h⟩) (ix2 r q)

theorem max_first (c : Dev nD) (z : EReal) (n : ℕ) (h : n < cfg0.N) (h0 : n % 16 = 0) :
    ((chain m c n h).2.2.1 KV.i000 ≤ z) ↔ slabLe m c z n h := by
  rw [chain_first m c ⟨n, h⟩ h0]
  show stepMax negInf1 (tgtV (blk1 m c ⟨n, h⟩)) KV.i000 ≤ z ↔ _
  refine (KR.stepMax_le _ _ z).trans ?_
  rw [KR.negInf1_apply]
  exact ⟨fun hh => hh.2, fun hh => ⟨bot_le, hh⟩⟩

theorem max_next (c : Dev nD) (z : EReal) (n : ℕ) (h : n + 1 < cfg0.N) (h0 : ¬(n + 1) % 16 = 0) :
    ((chain m c (n + 1) h).2.2.1 KV.i000 ≤ z) ↔ ((chain m c n (Nat.lt_of_succ_lt h)).2.2.1 KV.i000 ≤ z) ∧ slabLe m c z (n + 1) h := by
  rw [chain_next m c ⟨n + 1, h⟩ h0]
  show stepMax (chain m c n _).2.2.1 (tgtV (blk1 m c ⟨n + 1, h⟩)) KV.i000 ≤ z ↔ _
  exact KR.stepMax_le _ _ z

theorem min_first (c : Dev nD) (z : EReal) (n : ℕ) (h : n < cfg0.N) (h0 : n % 16 = 0) :
    (z ≤ (chain m c n h).2.2.2 KV.i000) ↔ slabGe m c z n h := by
  rw [chain_first m c ⟨n, h⟩ h0]
  show z ≤ stepMin posInf1 (tgtV (blk1 m c ⟨n, h⟩)) KV.i000 ↔ _
  refine (KR.le_stepMin _ _ z).trans ?_
  rw [KR.posInf1_apply]
  exact ⟨fun hh => hh.2, fun hh => ⟨le_top, hh⟩⟩

theorem min_next (c : Dev nD) (z : EReal) (n : ℕ) (h : n + 1 < cfg0.N) (h0 : ¬(n + 1) % 16 = 0) :
    (z ≤ (chain m c (n + 1) h).2.2.2 KV.i000) ↔ (z ≤ (chain m c n (Nat.lt_of_succ_lt h)).2.2.2 KV.i000) ∧ slabGe m c z (n + 1) h := by
  rw [chain_next m c ⟨n + 1, h⟩ h0]
  show z ≤ stepMin (chain m c n _).2.2.2 (tgtV (blk1 m c ⟨n + 1, h⟩)) KV.i000 ↔ _
  exact KR.le_stepMin _ _ z

/-- A slab's bound over the argument array. -/
theorem slabLe_iff (c : Dev nD) (z : EReal) (n : ℕ) (h : n < cfg0.N) (k : Fin 32) (hk : k.val = n) :
    slabLe m c z n h ↔ ∀ r q : Fin 1024, T m c (ix4 k (0 : Fin 1) r q) ≤ z := by
  subst hk
  unfold slabLe
  refine forall_congr' fun r => forall_congr' fun q => ?_
  rw [KR.tgtV_apply, blk1_apply m c ⟨k.val, h⟩ k.isLt r q]

theorem slabGe_iff (c : Dev nD) (z : EReal) (n : ℕ) (h : n < cfg0.N) (k : Fin 32) (hk : k.val = n) :
    slabGe m c z n h ↔ ∀ r q : Fin 1024, z ≤ T m c (ix4 k (0 : Fin 1) r q) := by
  subst hk
  unfold slabGe
  refine forall_congr' fun r => forall_congr' fun q => ?_
  rw [KR.tgtV_apply, blk1_apply m c ⟨k.val, h⟩ k.isLt r q]

/-- Core `a`'s final maximum is at most `z` iff every target entry of its sixteen slabs is. -/
theorem core_max_le (c : Dev nD) (a : ℕ) (ha : a < 2) (z : EReal) :
    (coreVals m c a ha).2.2.1 KV.i000 ≤ z
      ↔ ∀ j : Fin 16, slabLe m c z (16 * a + j.val) (by rw [show cfg0.N = 32 from N_0]; have := j.isLt; omega) :=
  Cert.RunFold.run_all_last cfg0.N (fun n h => (chain m c n h).2.2.1 KV.i000 ≤ z) (slabLe m c z) (max_first m c z) (max_next m c z) a
    (by rw [show cfg0.N = 32 from N_0]; omega)

theorem le_core_min (c : Dev nD) (a : ℕ) (ha : a < 2) (z : EReal) :
    z ≤ (coreVals m c a ha).2.2.2 KV.i000
      ↔ ∀ j : Fin 16, slabGe m c z (16 * a + j.val) (by rw [show cfg0.N = 32 from N_0]; have := j.isLt; omega) :=
  Cert.RunFold.run_all_last cfg0.N (fun n h => z ≤ (chain m c n h).2.2.2 KV.i000) (slabGe m c z) (min_first m c z) (min_next m c z) a
    (by rw [show cfg0.N = 32 from N_0]; omega)

end Cert.KernelIdeal.KI

end
-- ==== Proof.KTailRead.lean ====
/-
  The lines after the region read as one number, on the extended reals.

  The four output arrays hold one entry per core, at (a, 0, 0) for a below 2. The greatest of the maxima is a fold of max
  from −∞ over every index, so it is at most z iff both entries are; the least of the minima is a fold of min from +∞, so
  z is at most it iff z is at most both entries. A float sum over every index is the zero word plus the sum of the two
  entries. The result is the weighted total when the global test holds of the greatest and the least value, else the
  unweighted total, divided by the number of elements.
-/
import proofs.«116982_j21784074126165_2_alg».proof.Proof.KTail
import proofs.«116982_j21784074126165_2_alg».proof.Proof.Spec
import proofs.«116982_j21784074126165_2_alg».proof.Proof.LibMinOps
import Idealize.ShloMosaic.PureOps.Reduce
import Idealize.ShloMosaic.PureOps.Ideal.Laws
import Idealize.ShloMosaic.Lib.ValueIdx

noncomputable section

open scoped BigOperators

namespace Cert.KernelIdeal.KT

open Cert.KernelIdeal Cert.KernelIdeal.Gen Cert.KernelIdeal.KV Idealize.ShloMosaic Idealize.ShloMosaic.ValueIdx

/-- The one index of a rank-zero array. -/
abbrev i0 : S_.Idx := fun a => a.elim0

/-- The greatest of the cores' maxima. -/
def tailMax (o4 : (⟨S2x1x1, .f32⟩ : BufTy).Contents (Elt Ideal)) : EReal :=
  Host.reduce (FloatOps.maximumf (F := Ideal) (φ := .f32)) o4 (constant (F := Ideal) S_ .f32 0xFF800000#32)
    reducesTo_S2x1x1_S_d0_1_2 h_S_ i0

/-- The least of the cores' minima. -/
def tailMin (o5 : (⟨S2x1x1, .f32⟩ : BufTy).Contents (Elt Ideal)) : EReal :=
  Host.reduce (FloatOps.minimumf (F := Ideal) (φ := .f32)) o5 (constant (F := Ideal) S_ .f32 0x7F800000#32)
    reducesTo_S2x1x1_S_d0_1_2 h_S_ i0

/-- Every index of a [2, 1, 1] array is (a, 0, 0) for one a below 2. -/
theorem forall_idx211 (Q : S2x1x1.Idx → Prop) :
    (∀ k, Q k) ↔ ∀ a : Fin 2, Q (ix3 a (0 : Fin 1) (0 : Fin 1)) := by
  constructor
  · intro h a
    exact h _
  · intro h k
    have e : ix3 (k 0 : Fin 2) (0 : Fin 1) (0 : Fin 1) = k := by
      funext d
      match d with
      | ⟨0, _⟩ => rfl
      | ⟨1, _⟩ => exact Subsingleton.elim (α := Fin 1) _ _
      | ⟨2, _⟩ => exact Subsingleton.elim (α := Fin 1) _ _
    exact e ▸ h (k 0)

/-- Every index drops to the one index of a rank-zero result. -/
theorem filter_drop_eq_univ (j : S_.Idx) :
    (Finset.univ.filter fun i : S2x1x1.Idx => reducesTo_S2x1x1_S_d0_1_2.drop i = j) = Finset.univ :=
  Finset.filter_true_of_mem fun i _ => funext fun a => a.elim0

/-- The word 0xFF800000 is −∞. -/
theorem negInf_eq_bot : Ideal.ofBits .f32 0xFF800000#32 = (⊥ : EReal) := by simp [Ideal.ofBits, Ideal.ieee]

/-- The greatest of the maxima is at most `z` iff each core's maximum is. -/
theorem tailMax_le (o4 : (⟨S2x1x1, .f32⟩ : BufTy).Contents (Elt Ideal)) (z : EReal) :
    tailMax o4 ≤ z ↔ ∀ a : Fin 2, o4 (ix3 a (0 : Fin 1) (0 : Fin 1)) ≤ z := by
  unfold tailMax
  rw [Host.reduce_eq_fold, filter_drop_eq_univ]
  show Finset.fold max (Ideal.ofBits .f32 0xFF800000#32) o4 Finset.univ ≤ z ↔ _
  rw [Finset.fold_max_le, negInf_eq_bot]
  simp only [bot_le, true_and, Finset.mem_univ, true_imp_iff]
  exact forall_idx211 (fun k => o4 k ≤ z)

/-- `z` is at most the least of the minima iff it is at most each core's minimum. -/
theorem le_tailMin (o5 : (⟨S2x1x1, .f32⟩ : BufTy).Contents (Elt Ideal)) (z : EReal) :
    z ≤ tailMin o5 ↔ ∀ a : Fin 2, z ≤ o5 (ix3 a (0 : Fin 1) (0 : Fin 1)) := by
  unfold tailMin
  rw [Host.reduce_eq_fold, filter_drop_eq_univ]
  show z ≤ Finset.fold min (Ideal.ofBits .f32 0x7F800000#32) o5 Finset.univ ↔ _
  rw [Finset.le_fold_min, Cert.MinOps.posInf_eq_top]
  simp only [le_top, true_and, Finset.mem_univ, true_imp_iff]
  exact forall_idx211 (fun k => z ≤ o5 k)

/-- A float sum of a [2, 1, 1] array over every axis, from the zero word: the zero word plus the two entries' sum. -/
theorem reduceAdd_apply (o : (⟨S2x1x1, .f32⟩ : BufTy).Contents (Elt Ideal)) (i : S_.Idx) :
    Host.reduceAdd o (constant (F := Ideal) S_ .f32 0x00000000#32) reducesTo_S2x1x1_S_d0_1_2 h_S_ i
      = Ideal.ofBits .f32 0x00000000#32 + ∑ a : Fin 2, o (ix3 a (0 : Fin 1) (0 : Fin 1)) := by
  have h : Host.reduceAdd o (constant (F := Ideal) S_ .f32 0x00000000#32) reducesTo_S2x1x1_S_d0_1_2 h_S_ i
      = (constant (F := Ideal) S_ .f32 0x00000000#32) (Shape.Idx.first h_S_) + ∑ j : S2x1x1.Idx, o j := by
    simp only [Host.reduceAdd, Ideal.hostReduceAdd_def]
    exact Ideal.hostReduceAdd_total reducesTo_S2x1x1_S_d0_1_2 (fun b => b.elim0) o _ i
  rw [h, Cert.MinOps.sum_idx_n11]
  rfl

/-- The result: the weighted total where the global test holds, else the unweighted total, divided by the number of
    elements (2²⁵, the word 0x4C000000). -/
theorem tailV_apply (o2 o3 o4 o5 : (⟨S2x1x1, .f32⟩ : BufTy).Contents (Elt Ideal)) (i : S_.Idx) :
    tailV o2 o3 o4 o5 i
      = Ideal.div (Scalar.select (Cert.Spec.condBit (tailMax o4) (tailMin o5))
            (Ideal.ofBits .f32 0x00000000#32 + ∑ a : Fin 2, o3 (ix3 a (0 : Fin 1) (0 : Fin 1)))
            (Ideal.ofBits .f32 0x00000000#32 + ∑ a : Fin 2, o2 (ix3 a (0 : Fin 1) (0 : Fin 1))))
          (Ideal.ofBits .f32 0x4C000000#32) := by
  have hi : i = i0 := funext fun a => a.elim0
  subst hi
  show Ideal.div (Scalar.select (Cert.Spec.condBit (tailMax o4) (tailMin o5))
      (Host.reduceAdd o3 (constant (F := Ideal) S_ .f32 0x00000000#32) reducesTo_S2x1x1_S_d0_1_2 h_S_ i0)
      (Host.reduceAdd o2 (constant (F := Ideal) S_ .f32 0x00000000#32) reducesTo_S2x1x1_S_d0_1_2 h_S_ i0))
      (Ideal.ofBits .f32 0x4C000000#32) = _
  rw [reduceAdd_apply, reduceAdd_apply]

end Cert.KernelIdeal.KT

end
-- ==== Proof.RefForm.lean ====
/-
  The reference program's result as one sum of per-element terms, on the extended reals.

  The program's greatest and least target value are folds of max from −∞ and of min from +∞ over every index of the
  array, so each is characterised by its bounds: the maximum is at most z iff every element is, and z is at most the
  minimum iff z is at most every element. The thresholded mask at an index is the mask function of the target there.
  The result is the zero word plus the sum over every index of the element's loss times its weight, divided by the
  number of elements; the weight is the edge weight of the dilated and the eroded mask where the global test holds,
  and one where it does not.
-/
import proofs.«116982_j21784074126165_2_alg».proof.Proof.RefRead
import proofs.«116982_j21784074126165_2_alg».proof.Proof.Spec
import proofs.«116982_j21784074126165_2_alg».proof.Proof.LibSoftplus
import Idealize.ShloMosaic.PureOps.Reduce
import Idealize.ShloMosaic.PureOps.Ideal.Laws
import Idealize.ShloMosaic.Lib.ValueIdx

noncomputable section

open scoped BigOperators

namespace Cert.RefForm

open Cert.ReferenceIdeal Cert.ReferenceIdeal.Gen Idealize.ShloMosaic Idealize.ShloMosaic.ValueIdx

/-- The one index of a rank-zero array. -/
abbrev i0 : Cert.ReferenceIdeal.S_.Idx := fun a => a.elim0

/-- Every source index drops to the one index of a rank-zero result. -/
theorem filter_drop_eq_univ (j : S_.Idx) :
    (Finset.univ.filter fun i : S32x1x1024x1024.Idx => reducesTo_S32x1x1024x1024_S_d0_1_2_3.drop i = j) = Finset.univ :=
  Finset.filter_true_of_mem fun i _ => funext fun a => a.elim0

/-- The word 0xFF800000 is −∞. -/
theorem ofBits_neg_inf : Ideal.ofBits .f32 0xFF800000#32 = (⊥ : EReal) := by simp [Ideal.ofBits, Ideal.ieee]

/-- The word 0x7F800000 is +∞. -/
theorem ofBits_pos_inf : Ideal.ofBits .f32 0x7F800000#32 = (⊤ : EReal) := by simp [Ideal.ofBits, Ideal.ieee]

/-- The greatest target value of the whole array is at most `z` iff every element is. -/
theorem ref_max_le (T : FVec Ideal S32x1x1024x1024 .f32) (z : EReal) :
    ReadP.val_main_v3 (F := Ideal) T i0 ≤ z ↔ ∀ k, T k ≤ z := by
  unfold ReadP.val_main_v3
  rw [Host.reduce_eq_fold, filter_drop_eq_univ]
  show Finset.fold max (Ideal.ofBits .f32 0xFF800000#32) T Finset.univ ≤ z ↔ _
  rw [Finset.fold_max_le, ofBits_neg_inf]
  simp

/-- `z` is at most the least target value of the whole array iff it is at most every element. -/
theorem le_ref_min (T : FVec Ideal S32x1x1024x1024 .f32) (z : EReal) :
    z ≤ ReadP.val_main_v5 (F := Ideal) T i0 ↔ ∀ k, z ≤ T k := by
  unfold ReadP.val_main_v5
  rw [Host.reduce_eq_fold, filter_drop_eq_univ]
  show z ≤ Finset.fold min (Ideal.ofBits .f32 0x7F800000#32) T Finset.univ ↔ _
  rw [Finset.le_fold_min, ofBits_pos_inf]
  simp

/-- The mask at an index: one where the target there is above one half, zero elsewhere. -/
theorem mask_apply (T : FVec Ideal S32x1x1024x1024 .f32) (k : S32x1x1024x1024.Idx) :
    ReadP.val_main_v10 (F := Ideal) T k = Cert.Spec.maskAt (T k) := by
  rw [ReadP.val_main_v10_apply, ReadP.val_main_v9_apply, ReadP.val_main_v8_apply, ReadP.val_main_cst_3_apply]
  rfl

/-- The select on the global test, at an index: the test's bit chooses between the edge weight and one. -/
theorem v17_apply (T : FVec Ideal S32x1x1024x1024 .f32) (k : S32x1x1024x1024.Idx) :
    ReadP.val_main_v17 (F := Ideal) T k
      = Scalar.select (ReadP.val_main_v7 (F := Ideal) T i0) (ReadP.val_main_v16 (F := Ideal) T k)
          (Ideal.ofBits .f32 0x3F800000#32) := by
  unfold ReadP.val_main_v17
  rw [select_apply, ReadP.val_main_call2_v0_apply, ReadP.val_main_cst_9_apply]
  rw [broadcastInDim_apply _ bcast_S_S32x1x1024x1024 (ReadP.val_main_v7 (F := Ideal) T) k i0 (fun a => a.elim0)]
  rfl

/-- The reference's softplus of the prediction, at an index. -/
theorem v0_apply (P : FVec Ideal S32x1x1024x1024 .f32) (k : S32x1x1024x1024.Idx) :
    ReadP.val_main_v0 (F := Ideal) P k = Cert.Softplus.softplus (P k) :=
  Cert.Softplus.host_softplus_apply P (ReadP.val_main_call0_v0 (F := Ideal))
    (fun j => by rw [ReadP.val_main_call0_v0_apply]; rfl) k

/-- The edge weight, at an index, from the dilated and the eroded mask. -/
theorem v16_apply (T : FVec Ideal S32x1x1024x1024 .f32) (k : S32x1x1024x1024.Idx) :
    ReadP.val_main_v16 (F := Ideal) T k
      = Cert.Spec.weightAt (ReadP.val_main_v11 (F := Ideal) T k) (ReadP.val_main_v12 (F := Ideal) T k) := by
  rw [ReadP.val_main_v16_apply, ReadP.val_main_v15_apply, ReadP.val_main_v13_apply, ReadP.val_main_v14_apply,
    ReadP.val_main_call1_v0_apply, ReadP.val_main_call1_v1_apply]
  rfl

/-- The global test's bit is the test of the whole array's greatest and least value. -/
theorem v7_apply (T : FVec Ideal S32x1x1024x1024 .f32) :
    ReadP.val_main_v7 (F := Ideal) T i0
      = Cert.Spec.condBit (ReadP.val_main_v3 (F := Ideal) T i0) (ReadP.val_main_v5 (F := Ideal) T i0) := by
  rw [ReadP.val_main_v7_apply, ReadP.val_main_v4_apply, ReadP.val_main_v6_apply]
  rfl

/-- The result: the zero word plus the sum of the weighted per-element losses, divided by the number of elements (2²⁵,
    the word 0x4C000000). The dilated and the eroded mask stay as the program's two windowed reductions. -/
theorem ref_result (P T : FVec Ideal S32x1x1024x1024 .f32) (i : S_.Idx) :
    ReadP.val_main_v20 (F := Ideal) P T i
      = Ideal.div (Ideal.ofBits .f32 0x00000000#32
          + ∑ k : S32x1x1024x1024.Idx, Cert.Spec.lossAt (P k) (T k)
              * Scalar.select (Cert.Spec.condBit (ReadP.val_main_v3 (F := Ideal) T i0) (ReadP.val_main_v5 (F := Ideal) T i0))
                  (Cert.Spec.weightAt (ReadP.val_main_v11 (F := Ideal) T k) (ReadP.val_main_v12 (F := Ideal) T k))
                  (Ideal.ofBits .f32 0x3F800000#32))
          (Ideal.ofBits .f32 0x4C000000#32) := by
  rw [ReadP.val_main_v20_apply, ReadP.val_main_v19_apply, ReadP.val_main_cst_11_apply, ReadP.val_main_cst_10_apply]
  show Ideal.div (Ideal.ofBits .f32 0x00000000#32 + ∑ j, ReadP.val_main_v18 (F := Ideal) P T j)
      (Ideal.ofBits .f32 0x4C000000#32) = _
  refine congrArg (fun s => Ideal.div (Ideal.ofBits .f32 0x00000000#32 + s) (Ideal.ofBits .f32 0x4C000000#32)) ?_
  refine Finset.sum_congr rfl fun k _ => ?_
  rw [ReadP.val_main_v18_apply, v17_apply, v16_apply, v7_apply, ReadP.val_main_v2_apply, ReadP.val_main_v1_apply,
    v0_apply]
  rfl

end Cert.RefForm

end
-- ==== Proof.LibMorph.lean ====
/-
  A 5×5 windowed maximum (minimum) of a 1024×1024 slab, computed in one window reduction with padding 2 on both axes, equals
  the separable computation: a window-5 pooling along the lanes followed by one along the rows, each pooling combining the
  slab with its four shifts by −2, −1, +1, +2 places, the places a shift brings in from outside filled with −∞ (+∞).

  Neither side is evaluated. For the maximum, both sides are shown to have the same upper bounds: `z` bounds either side at
  `(r, c)` exactly when it bounds every entry `(r', c')` of the slab with `|r' − r| ≤ 2` and `|c' − c| ≤ 2`; two extended
  reals with the same upper bounds are equal. For the minimum the same argument runs with lower bounds. The two cases are
  carried at once by a relation `R a z` ("`z` bounds `a`"), a padding value every `z` bounds, and a combination `o` with
  `R (o a b) z ↔ R a z ∧ R b z`.

  Pieces: the signed comparison of two numbers below 1024 as 32-bit words; a rotation and a masked rotation read at an index;
  the bounds of a masked shift, of one pooling, of the two poolings composed; the bounds of a left fold; the bounds of a host
  window reduction in general, then of the 5×5 window at `(n, 0, r, c)`.
-/
import proofs.«116982_j21784074126165_2_alg».proof.Proof.LibMorphDefs

noncomputable section

namespace Cert.Morph

open Idealize.ShloMosaic Idealize.ShloMosaic.ValueIdx

/-- The signed reading of a small natural number as a 32-bit word is the number itself. -/
theorem toInt_small (m : ℕ) (hm : m < 1024) : (BitVec.ofNat 32 m).toInt = (m : ℤ) := by
  have h : (BitVec.ofNat 32 m).toNat = m := by
    rw [BitVec.toNat_ofNat]; exact Nat.mod_eq_of_lt (by omega)
  rw [BitVec.toInt_eq_toNat_of_lt (by rw [h]; omega), h]

/-- A select on the signed "less than" of two small numbers is the conditional on their order. -/
theorem select_slt {α : Type} (m k : ℕ) (hm : m < 1024) (hk : k < 1024) (a b : α) :
    Scalar.select (IntOp.cmpi .slt (BitVec.ofNat 32 m) (BitVec.ofNat 32 k)) a b = if m < k then a else b := by
  have h : (BitVec.ofNat 32 m).slt (BitVec.ofNat 32 k) = decide (m < k) := by
    rw [BitVec.slt, toInt_small m hm, toInt_small k hk]
    congr 1
    apply propext
    omega
  unfold IntOp.cmpi Scalar.select
  simp only [h]
  by_cases hmk : m < k <;> simp [hmk]

/-- A select on the signed "greater or equal" of two small numbers is the conditional on their order. -/
theorem select_sge {α : Type} (m k : ℕ) (hm : m < 1024) (hk : k < 1024) (a b : α) :
    Scalar.select (IntOp.cmpi .sge (BitVec.ofNat 32 m) (BitVec.ofNat 32 k)) a b = if k ≤ m then a else b := by
  have h : (BitVec.ofNat 32 k).sle (BitVec.ofNat 32 m) = decide (k ≤ m) := by
    rw [BitVec.sle, toInt_small m hm, toInt_small k hk]
    congr 1
    apply propext
    omega
  unfold IntOp.cmpi Scalar.select
  simp only [h]
  by_cases hmk : k ≤ m <;> simp [hmk]

/-- The word of −∞ is the least extended real. -/
theorem ofBits_neg_inf : (Scalar.ofBits (F := Ideal) .f32 0xFF800000#32 : EReal) = ⊥ := by
  simp [Scalar.ofBits, Ideal.ofBits, Ideal.ieee]

/-- The word of +∞ is the greatest extended real. -/
theorem ofBits_pos_inf : (Scalar.ofBits (F := Ideal) .f32 0x7F800000#32 : EReal) = ⊤ := by
  simp [Scalar.ofBits, Ideal.ofBits, Ideal.ieee]

/-- A rotation along the rows read at `(r, c)`: the entry `k` rows back, around the end. -/
theorem rotate0_apply (k : ℕ) (hk : k < 1024) (x : FVec Ideal Sq .f32) (hr : Sq.Rotates 0 none) (r c : Fin 1024) :
    dynamicRotate 0 (BitVec.ofNat 32 k) none x hr (ix2 r c)
      = x (ix2 (⟨(r.val + 1024 - k) % 1024, Nat.mod_lt _ (by omega)⟩ : Fin 1024) c) := by
  have hkk : (BitVec.ofNat 32 k).toNat = k := by
    rw [BitVec.toNat_ofNat]; exact Nat.mod_eq_of_lt (by omega)
  refine dynamicRotate_apply (0 : Fin 2) _ x hr (ix2 r c) _ (fun b => ?_)
  match b with
  | ⟨0, _⟩ =>
    show (r.val + 1024 - k) % 1024 = (r.val + 1024 - (BitVec.ofNat 32 k).toNat % 1024) % 1024
    rw [hkk, Nat.mod_eq_of_lt hk]
  | ⟨1, _⟩ => rfl

/-- A rotation along the lanes read at `(r, c)`: the entry `k` lanes back, around the end. -/
theorem rotate1_apply (k : ℕ) (hk : k < 1024) (x : FVec Ideal Sq .f32) (hr : Sq.Rotates 1 none) (r c : Fin 1024) :
    dynamicRotate 1 (BitVec.ofNat 32 k) none x hr (ix2 r c)
      = x (ix2 r (⟨(c.val + 1024 - k) % 1024, Nat.mod_lt _ (by omega)⟩ : Fin 1024)) := by
  have hkk : (BitVec.ofNat 32 k).toNat = k := by
    rw [BitVec.toNat_ofNat]; exact Nat.mod_eq_of_lt (by omega)
  refine dynamicRotate_apply (1 : Fin 2) _ x hr (ix2 r c) _ (fun b => ?_)
  match b with
  | ⟨0, _⟩ => rfl
  | ⟨1, _⟩ =>
    show (c.val + 1024 - k) % 1024 = (c.val + 1024 - (BitVec.ofNat 32 k).toNat % 1024) % 1024
    rw [hkk, Nat.mod_eq_of_lt hk]

/-! ### The masked shifts at an index -/

/-- The shift from below by `k` along the rows at `(r, c)`: the padding in the first `k` rows, else the entry `k` rows back. -/
theorem fromBelow0_eq (k : ℕ) (hk : k < 1024) (pad : EReal) (x : FVec Ideal Sq .f32) (hr : Sq.Rotates 0 none)
    (hi : Sq.Iotas .tc 32 [0]) (r c : Fin 1024) :
    (fromBelow 0 (BitVec.ofNat 32 k) pad x hr hi (ix2 r c) : EReal)
      = if r.val < k then pad else x (ix2 (⟨(r.val + 1024 - k) % 1024, Nat.mod_lt _ (by omega)⟩ : Fin 1024) c) := by
  show Scalar.select (IntOp.cmpi .slt (iota .tc Sq 32 [0] hi (ix2 r c)) (BitVec.ofNat 32 k)) pad
    (dynamicRotate 0 (BitVec.ofNat 32 k) none x hr (ix2 r c)) = _
  rw [iota_single_apply, rotate0_apply k hk]
  exact select_slt r.val k r.isLt hk _ _

/-- The rotation by `k` along the rows masked from row `k` on, at `(r, c)`: the padding from row `k` on, else the entry
    `1024 − k` rows ahead. -/
theorem fromAbove0_eq (k : ℕ) (hk : k < 1024) (pad : EReal) (x : FVec Ideal Sq .f32) (hr : Sq.Rotates 0 none)
    (hi : Sq.Iotas .tc 32 [0]) (r c : Fin 1024) :
    (fromAbove 0 (BitVec.ofNat 32 k) pad x hr hi (ix2 r c) : EReal)
      = if k ≤ r.val then pad else x (ix2 (⟨(r.val + 1024 - k) % 1024, Nat.mod_lt _ (by omega)⟩ : Fin 1024) c) := by
  show Scalar.select (IntOp.cmpi .sge (iota .tc Sq 32 [0] hi (ix2 r c)) (BitVec.ofNat 32 k)) pad
    (dynamicRotate 0 (BitVec.ofNat 32 k) none x hr (ix2 r c)) = _
  rw [iota_single_apply, rotate0_apply k hk]
  exact select_sge r.val k r.isLt hk _ _

/-- The shift from below by `k` along the lanes at `(r, c)`: the padding in the first `k` lanes, else the entry `k` lanes back. -/
theorem fromBelow1_eq (k : ℕ) (hk : k < 1024) (pad : EReal) (x : FVec Ideal Sq .f32) (hr : Sq.Rotates 1 none)
    (hi : Sq.Iotas .tc 32 [1]) (r c : Fin 1024) :
    (fromBelow 1 (BitVec.ofNat 32 k) pad x hr hi (ix2 r c) : EReal)
      = if c.val < k then pad else x (ix2 r (⟨(c.val + 1024 - k) % 1024, Nat.mod_lt _ (by omega)⟩ : Fin 1024)) := by
  show Scalar.select (IntOp.cmpi .slt (iota .tc Sq 32 [1] hi (ix2 r c)) (BitVec.ofNat 32 k)) pad
    (dynamicRotate 1 (BitVec.ofNat 32 k) none x hr (ix2 r c)) = _
  rw [iota_single_apply, rotate1_apply k hk]
  exact select_slt c.val k c.isLt hk _ _

/-- The rotation by `k` along the lanes masked from lane `k` on, at `(r, c)`: the padding from lane `k` on, else the entry
    `1024 − k` lanes ahead. -/
theorem fromAbove1_eq (k : ℕ) (hk : k < 1024) (pad : EReal) (x : FVec Ideal Sq .f32) (hr : Sq.Rotates 1 none)
    (hi : Sq.Iotas .tc 32 [1]) (r c : Fin 1024) :
    (fromAbove 1 (BitVec.ofNat 32 k) pad x hr hi (ix2 r c) : EReal)
      = if k ≤ c.val then pad else x (ix2 r (⟨(c.val + 1024 - k) % 1024, Nat.mod_lt _ (by omega)⟩ : Fin 1024)) := by
  show Scalar.select (IntOp.cmpi .sge (iota .tc Sq 32 [1] hi (ix2 r c)) (BitVec.ofNat 32 k)) pad
    (dynamicRotate 1 (BitVec.ofNat 32 k) none x hr (ix2 r c)) = _
  rw [iota_single_apply, rotate1_apply k hk]
  exact select_sge c.val k c.isLt hk _ _

/-! ### Bounds

  Both the maximum (with padding −∞) and the minimum (with padding +∞) are treated at once: `R a z` is "`z` bounds `a`"
  (`a ≤ z` for the maximum, `z ≤ a` for the minimum), the padding is bounded by every `z`, and `z` bounds the
  combination `o a b` exactly when it bounds both. -/

section Bounds

variable (R : EReal → EReal → Prop) (o : EReal → EReal → EReal) (pad : EReal)
  (hpad : ∀ z, R pad z) (hop : ∀ a b z, R (o a b) z ↔ (R a z ∧ R b z))

/-- A value masked by the padding is bounded by `z` iff it is where it is not masked: stated for a one-place family
    `g` of which the condition `Q` selects at most the place `m`. -/
theorem masked_bound (P : Prop) [Decidable P] (m : Fin 1024) (g : Fin 1024 → EReal) (Q : Fin 1024 → Prop) (z : EReal)
    (hP : P → ∀ r', ¬ Q r') (hQ : ¬ P → ∀ r', Q r' ↔ r' = m) (hpad : ∀ z, R pad z) :
    R (if P then pad else g m) z ↔ ∀ r', Q r' → R (g r') z := by
  by_cases h : P
  · rw [if_pos h]
    exact ⟨fun _ r' hr' => absurd hr' (hP h r'), fun _ => hpad z⟩
  · rw [if_neg h]
    constructor
    · intro hz r' hr'
      rw [(hQ h r').1 hr']; exact hz
    · intro hz
      exact hz m ((hQ h m).2 rfl)

include hpad in
/-- `z` bounds the shift from below by `k` along the rows at `(r, c)` iff it bounds the entry `k` rows back, if there is one. -/
theorem fromBelow0_bound (k : ℕ) (hk : k < 1024) (x : FVec Ideal Sq .f32) (hr : Sq.Rotates 0 none) (hi : Sq.Iotas .tc 32 [0])
    (r c : Fin 1024) (z : EReal) :
    R (fromBelow 0 (BitVec.ofNat 32 k) pad x hr hi (ix2 r c)) z
      ↔ ∀ r' : Fin 1024, r'.val + k = r.val → R (x (ix2 r' c)) z := by
  rw [fromBelow0_eq k hk]
  refine masked_bound R pad _ _ (fun r' => x (ix2 r' c)) (fun r' => r'.val + k = r.val) z ?_ ?_ hpad
  · intro h r' hr'; omega
  · intro h r'
    constructor
    · intro hr'; exact Fin.ext (by show r'.val = (r.val + 1024 - k) % 1024; omega)
    · intro hr'; rw [hr']; show (r.val + 1024 - k) % 1024 + k = r.val; omega

include hpad in
/-- `z` bounds the masked rotation by `k` along the rows at `(r, c)` iff it bounds the entry `1024 − k` rows ahead, if there is one. -/
theorem fromAbove0_bound (k : ℕ) (hk : k < 1024) (x : FVec Ideal Sq .f32) (hr : Sq.Rotates 0 none) (hi : Sq.Iotas .tc 32 [0])
    (r c : Fin 1024) (z : EReal) :
    R (fromAbove 0 (BitVec.ofNat 32 k) pad x hr hi (ix2 r c)) z
      ↔ ∀ r' : Fin 1024, r'.val + k = r.val + 1024 → R (x (ix2 r' c)) z := by
  rw [fromAbove0_eq k hk]
  refine masked_bound R pad _ _ (fun r' => x (ix2 r' c)) (fun r' => r'.val + k = r.val + 1024) z ?_ ?_ hpad
  · intro h r' hr'; have := r'.isLt; omega
  · intro h r'
    constructor
    · intro hr'; exact Fin.ext (by show r'.val = (r.val + 1024 - k) % 1024; omega)
    · intro hr'; rw [hr']; show (r.val + 1024 - k) % 1024 + k = r.val + 1024; omega

include hpad in
/-- `z` bounds the shift from below by `k` along the lanes at `(r, c)` iff it bounds the entry `k` lanes back, if there is one. -/
theorem fromBelow1_bound (k : ℕ) (hk : k < 1024) (x : FVec Ideal Sq .f32) (hr : Sq.Rotates 1 none) (hi : Sq.Iotas .tc 32 [1])
    (r c : Fin 1024) (z : EReal) :
    R (fromBelow 1 (BitVec.ofNat 32 k) pad x hr hi (ix2 r c)) z
      ↔ ∀ c' : Fin 1024, c'.val + k = c.val → R (x (ix2 r c')) z := by
  rw [fromBelow1_eq k hk]
  refine masked_bound R pad _ _ (fun c' => x (ix2 r c')) (fun c' => c'.val + k = c.val) z ?_ ?_ hpad
  · intro h c' hc'; omega
  · intro h c'
    constructor
    · intro hc'; exact Fin.ext (by show c'.val = (c.val + 1024 - k) % 1024; omega)
    · intro hc'; rw [hc']; show (c.val + 1024 - k) % 1024 + k = c.val; omega

include hpad in
/-- `z` bounds the masked rotation by `k` along the lanes at `(r, c)` iff it bounds the entry `1024 − k` lanes ahead, if there is one. -/
theorem fromAbove1_bound (k : ℕ) (hk : k < 1024) (x : FVec Ideal Sq .f32) (hr : Sq.Rotates 1 none) (hi : Sq.Iotas .tc 32 [1])
    (r c : Fin 1024) (z : EReal) :
    R (fromAbove 1 (BitVec.ofNat 32 k) pad x hr hi (ix2 r c)) z
      ↔ ∀ c' : Fin 1024, c'.val + k = c.val + 1024 → R (x (ix2 r c')) z := by
  rw [fromAbove1_eq k hk]
  refine masked_bound R pad _ _ (fun c' => x (ix2 r c')) (fun c' => c'.val + k = c.val + 1024) z ?_ ?_ hpad
  · intro h c' hc'; have := c'.isLt; omega
  · intro h c'
    constructor
    · intro hc'; exact Fin.ext (by show c'.val = (c.val + 1024 - k) % 1024; omega)
    · intro hc'; rw [hc']; show (c.val + 1024 - k) % 1024 + k = c.val + 1024; omega

include hpad hop in
/-- The bounds of the pooling along the rows at `(r, c)` are the common bounds of the entries within two rows of `r`. -/
theorem pool0_bound (op : FVec Ideal Sq .f32 → FVec Ideal Sq .f32 → FVec Ideal Sq .f32)
    (hopv : ∀ a b j, op a b j = o (a j) (b j))
    (x : FVec Ideal Sq .f32) (hr : Sq.Rotates 0 none) (hi : Sq.Iotas .tc 32 [0]) (r c : Fin 1024) (z : EReal) :
    R (pool op 0 pad x hr hi (ix2 r c)) z
      ↔ ∀ r' : Fin 1024, r.val ≤ r'.val + 2 → r'.val ≤ r.val + 2 → R (x (ix2 r' c)) z := by
  unfold pool
  rw [hopv, hopv, hopv, hopv, hop, hop, hop, hop,
    fromBelow0_bound R pad hpad 2 (by omega), fromBelow0_bound R pad hpad 1 (by omega),
    fromAbove0_bound R pad hpad 1023 (by omega), fromAbove0_bound R pad hpad 1022 (by omega)]
  constructor
  · rintro ⟨⟨⟨⟨h0, h1⟩, h2⟩, h3⟩, h4⟩ r' ha hb
    have hc : r'.val + 2 = r.val ∨ r'.val + 1 = r.val ∨ r'.val = r.val ∨ r'.val + 1023 = r.val + 1024
        ∨ r'.val + 1022 = r.val + 1024 := by omega
    rcases hc with h | h | h | h | h
    · exact h1 r' h
    · exact h2 r' h
    · rw [Fin.ext h]; exact h0
    · exact h3 r' h
    · exact h4 r' h
  · intro h
    exact ⟨⟨⟨⟨h r (by omega) (by omega), fun r' e => h r' (by omega) (by omega)⟩, fun r' e => h r' (by omega) (by omega)⟩,
      fun r' e => h r' (by omega) (by omega)⟩, fun r' e => h r' (by omega) (by omega)⟩

include hpad hop in
/-- The bounds of the pooling along the lanes at `(r, c)` are the common bounds of the entries within two lanes of `c`. -/
theorem pool1_bound (op : FVec Ideal Sq .f32 → FVec Ideal Sq .f32 → FVec Ideal Sq .f32)
    (hopv : ∀ a b j, op a b j = o (a j) (b j))
    (x : FVec Ideal Sq .f32) (hr : Sq.Rotates 1 none) (hi : Sq.Iotas .tc 32 [1]) (r c : Fin 1024) (z : EReal) :
    R (pool op 1 pad x hr hi (ix2 r c)) z
      ↔ ∀ c' : Fin 1024, c.val ≤ c'.val + 2 → c'.val ≤ c.val + 2 → R (x (ix2 r c')) z := by
  unfold pool
  rw [hopv, hopv, hopv, hopv, hop, hop, hop, hop,
    fromBelow1_bound R pad hpad 2 (by omega), fromBelow1_bound R pad hpad 1 (by omega),
    fromAbove1_bound R pad hpad 1023 (by omega), fromAbove1_bound R pad hpad 1022 (by omega)]
  constructor
  · rintro ⟨⟨⟨⟨h0, h1⟩, h2⟩, h3⟩, h4⟩ c' ha hb
    have hc : c'.val + 2 = c.val ∨ c'.val + 1 = c.val ∨ c'.val = c.val ∨ c'.val + 1023 = c.val + 1024
        ∨ c'.val + 1022 = c.val + 1024 := by omega
    rcases hc with h | h | h | h | h
    · exact h1 c' h
    · exact h2 c' h
    · rw [Fin.ext h]; exact h0
    · exact h3 c' h
    · exact h4 c' h
  · intro h
    exact ⟨⟨⟨⟨h c (by omega) (by omega), fun c' e => h c' (by omega) (by omega)⟩, fun c' e => h c' (by omega) (by omega)⟩,
      fun c' e => h c' (by omega) (by omega)⟩, fun c' e => h c' (by omega) (by omega)⟩

include hpad hop in
/-- The separable pooling — lanes, then rows — of slab `n`: its bounds at `(r, c)` are the common bounds of the entries
    within two rows and two lanes. -/
theorem pool01_bound (op : FVec Ideal Sq .f32 → FVec Ideal Sq .f32 → FVec Ideal Sq .f32)
    (hopv : ∀ a b j, op a b j = o (a j) (b j)) (x : FVec Ideal Arr .f32) (n : Fin 32)
    (hr0 : Sq.Rotates 0 none) (hi0 : Sq.Iotas .tc 32 [0]) (hr1 : Sq.Rotates 1 none) (hi1 : Sq.Iotas .tc 32 [1])
    (r c : Fin 1024) (z : EReal) :
    R (pool op 0 pad (pool op 1 pad (slab x n) hr1 hi1) hr0 hi0 (ix2 r c)) z
      ↔ ∀ r' c' : Fin 1024, r.val ≤ r'.val + 2 → r'.val ≤ r.val + 2 → c.val ≤ c'.val + 2 → c'.val ≤ c.val + 2 →
          R (x (ix4 n (0 : Fin 1) r' c')) z := by
  rw [pool0_bound R o pad hpad hop op hopv]
  constructor
  · intro h r' c' h1 h2 h3 h4
    exact (pool1_bound R o pad hpad hop op hopv (slab x n) hr1 hi1 r' c z).1 (h r' h1 h2) c' h3 h4
  · intro h r' h1 h2
    exact (pool1_bound R o pad hpad hop op hopv (slab x n) hr1 hi1 r' c z).2 (fun c' h3 h4 => h r' c' h1 h2 h3 h4)

end Bounds

section Host

variable (R : EReal → EReal → Prop) (o : EReal → EReal → EReal)
  (hop : ∀ a b z, R (o a b) z ↔ (R a z ∧ R b z))

include hop in
/-- A left fold of the combination from `v` is bounded by `z` iff `v` and every member are. -/
theorem foldl_bound {ι : Type} (l : List ι) (t : ι → EReal) (v z : EReal) :
    R (l.foldl (fun a n => o a (t n)) v) z ↔ R v z ∧ ∀ n ∈ l, R (t n) z := by
  induction l generalizing v with
  | nil => simp
  | cons a l ih =>
    rw [List.foldl_cons, ih, hop]
    constructor
    · rintro ⟨⟨h1, h2⟩, h3⟩
      refine ⟨h1, fun n hn => ?_⟩
      rcases List.mem_cons.1 hn with rfl | hn
      · exact h2
      · exact h3 n hn
    · rintro ⟨h1, h2⟩
      exact ⟨⟨h1, h2 a List.mem_cons_self⟩, fun n hn => h2 n (List.mem_cons_of_mem _ hn)⟩

/-- An entry that is the initial value outside the array is bounded by `z` iff it is wherever it is inside. -/
theorem dite_bound (C : Prop) {inst : Decidable C} (A : C → EReal) (v z : EReal) (hv : R v z) :
    R (if h : C then A h else v) z ↔ ∀ h : C, R (A h) z := by
  by_cases h : C
  · rw [dif_pos h]; exact ⟨fun hz _ => hz, fun hz => hz h⟩
  · rw [dif_neg h]; exact ⟨fun _ h' => absurd h' h, fun _ => hv⟩

include hop in
/-- The bounds of a host window reduction at `j`, when every `z` bounds the initial value: the common bounds of the operand's
    entries at the window's positions that fall inside the operand. -/
theorem reduceWindow_bound {s t u : Shape} (window strides lo hi : Fin s.rank → Nat) (x : s.Idx → EReal) (init : u.Idx → EReal)
    (h : s.ReduceWindows window strides lo hi t) (hu : 0 < u.numel) (hv : ∀ z, R (init (Shape.Idx.first hu)) z)
    (j : t.Idx) (z : EReal) :
    R (Host.reduceWindow o window strides lo hi x init h hu j) z
      ↔ ∀ (w : (⟨s.rank, window⟩ : Shape).Idx)
          (hin : ∀ a, lo a ≤ (j (a.cast h.1.symm)).val * strides a + (w a).val
            ∧ (j (a.cast h.1.symm)).val * strides a + (w a).val - lo a < s.size a),
          R (x fun a => ⟨(j (a.cast h.1.symm)).val * strides a + (w a).val - lo a, (hin a).2⟩) z := by
  unfold Host.reduceWindow
  rw [foldl_bound R o hop]
  constructor
  · rintro ⟨-, hh⟩ w hin
    obtain ⟨m, rfl⟩ := (⟨s.rank, window⟩ : Shape).rowMajor.symm.surjective w
    exact (dite_bound R _ _ _ _ (hv z)).1 (hh m (List.mem_finRange m)) hin
  · intro hh
    exact ⟨hv z, fun m _ => (dite_bound R _ _ _ _ (hv z)).2 (fun hin => hh _ hin)⟩

include hop in
/-- The bounds of the host's 5×5 window at `(n, 0, r, c)` are the common bounds of the entries within two rows and two
    lanes of `(r, c)` in slab `n`. -/
theorem window_bound (x : FVec Ideal Arr .f32) (v : Sc.Idx → EReal)
    (hw : Arr.ReduceWindows (![1, 1, 5, 5] : Fin 4 → Nat) ![1, 1, 1, 1] ![0, 0, 2, 2] ![0, 0, 2, 2] Arr) (hu : 0 < Sc.numel)
    (hv : ∀ z, R (v (Shape.Idx.first hu)) z) (n : Fin 32) (r c : Fin 1024) (z : EReal) :
    R (Host.reduceWindow o ![1, 1, 5, 5] ![1, 1, 1, 1] ![0, 0, 2, 2] ![0, 0, 2, 2] x v hw hu (ix4 n (0 : Fin 1) r c)) z
      ↔ ∀ r' c' : Fin 1024, r.val ≤ r'.val + 2 → r'.val ≤ r.val + 2 → c.val ≤ c'.val + 2 → c'.val ≤ c.val + 2 →
          R (x (ix4 n (0 : Fin 1) r' c')) z := by
  rw [reduceWindow_bound R o hop _ _ _ _ _ _ _ _ hv]
  constructor
  · intro h r' c' h1 h2 h3 h4
    have := h (ix4 (0 : Fin 1) (0 : Fin 1) (⟨r'.val + 2 - r.val, by omega⟩ : Fin 5) (⟨c'.val + 2 - c.val, by omega⟩ : Fin 5))
      (fun a => match a with
      | ⟨0, _⟩ => by show 0 ≤ n.val * 1 + 0 ∧ n.val * 1 + 0 - 0 < 32; omega
      | ⟨1, _⟩ => by show 0 ≤ 0 * 1 + 0 ∧ 0 * 1 + 0 - 0 < 1; omega
      | ⟨2, _⟩ => by show 2 ≤ r.val * 1 + (r'.val + 2 - r.val) ∧ r.val * 1 + (r'.val + 2 - r.val) - 2 < 1024; omega
      | ⟨3, _⟩ => by show 2 ≤ c.val * 1 + (c'.val + 2 - c.val) ∧ c.val * 1 + (c'.val + 2 - c.val) - 2 < 1024; omega)
    convert this using 2
    funext a
    match a with
    | ⟨0, _⟩ => exact Fin.ext (by show n.val = n.val * 1 + 0 - 0; omega)
    | ⟨1, _⟩ => exact Fin.ext (by show 0 = 0 * 1 + 0 - 0; omega)
    | ⟨2, _⟩ => exact Fin.ext (by show r'.val = r.val * 1 + (r'.val + 2 - r.val) - 2; omega)
    | ⟨3, _⟩ => exact Fin.ext (by show c'.val = c.val * 1 + (c'.val + 2 - c.val) - 2; omega)
  · intro h w hin
    have w0 : (w 0).val < 1 := (w 0).isLt
    have w1 : (w 1).val < 1 := (w 1).isLt
    have w2 : (w 2).val < 5 := (w 2).isLt
    have w3 : (w 3).val < 5 := (w 3).isLt
    have i2 : 2 ≤ r.val * 1 + (w 2).val ∧ r.val * 1 + (w 2).val - 2 < 1024 := hin 2
    have i3 : 2 ≤ c.val * 1 + (w 3).val ∧ c.val * 1 + (w 3).val - 2 < 1024 := hin 3
    have := h ⟨r.val * 1 + (w 2).val - 2, i2.2⟩ ⟨c.val * 1 + (w 3).val - 2, i3.2⟩
      (by show r.val ≤ r.val * 1 + (w 2).val - 2 + 2; omega) (by show r.val * 1 + (w 2).val - 2 ≤ r.val + 2; omega)
      (by show c.val ≤ c.val * 1 + (w 3).val - 2 + 2; omega) (by show c.val * 1 + (w 3).val - 2 ≤ c.val + 2; omega)
    convert this using 2
    funext a
    match a with
    | ⟨0, _⟩ => exact Fin.ext (by show n.val * 1 + (w 0).val - 0 = n.val; omega)
    | ⟨1, _⟩ => exact Fin.ext (by show 0 * 1 + (w 1).val - 0 = 0; omega)
    | ⟨2, _⟩ => rfl
    | ⟨3, _⟩ => rfl

end Host

/-- The word of −∞ read at the ideal instance. -/
theorem ideal_ofBits_neg_inf : (Ideal.ofBits .f32 0xFF800000#32 : EReal) = ⊥ := by
  simp [Ideal.ofBits, Ideal.ieee]

/-- The word of +∞ read at the ideal instance. -/
theorem ideal_ofBits_pos_inf : (Ideal.ofBits .f32 0x7F800000#32 : EReal) = ⊤ := by
  simp [Ideal.ofBits, Ideal.ieee]

/-- DILATION. The host's 5×5 windowed maximum (padding 2 on the last two axes, initial value −∞) at `(n, 0, r, c)` is the
    separable pooling of slab `n` — along the lanes, then along the rows — at `(r, c)`: both have the same upper bounds,
    namely the common upper bounds of the entries of slab `n` within two rows and two lanes of `(r, c)`. -/
theorem dilate_eq (x : FVec Ideal Arr .f32) (v : Sc.Idx → EReal)
    (hw : Arr.ReduceWindows (![1, 1, 5, 5] : Fin 4 → Nat) ![1, 1, 1, 1] ![0, 0, 2, 2] ![0, 0, 2, 2] Arr) (hu : 0 < Sc.numel)
    (hv : v (Shape.Idx.first hu) = Ideal.ofBits .f32 0xFF800000#32)
    (hr0 : Sq.Rotates 0 none) (hi0 : Sq.Iotas .tc 32 [0]) (hr1 : Sq.Rotates 1 none) (hi1 : Sq.Iotas .tc 32 [1])
    (n : Fin 32) (r c : Fin 1024) :
    Host.reduceWindow (FloatOps.maximumf (F := Ideal) (φ := .f32)) ![1, 1, 5, 5] ![1, 1, 1, 1] ![0, 0, 2, 2] ![0, 0, 2, 2] x v hw hu
        (ix4 n (0 : Fin 1) r c)
      = pool maximumf 0 (Scalar.ofBits .f32 0xFF800000#32)
          (pool maximumf 1 (Scalar.ofBits .f32 0xFF800000#32) (slab x n) hr1 hi1) hr0 hi0 (ix2 r c) := by
  have hop : ∀ a b z : EReal, FloatOps.maximumf (F := Ideal) (φ := .f32) a b ≤ z ↔ (a ≤ z ∧ b ≤ z) := fun a b z => max_le_iff
  have hv' : ∀ z : EReal, v (Shape.Idx.first hu) ≤ z := fun z => by rw [hv, ideal_ofBits_neg_inf]; exact bot_le
  have hpad : ∀ z : EReal, (Scalar.ofBits (F := Ideal) .f32 0xFF800000#32 : EReal) ≤ z := fun z => by
    rw [ofBits_neg_inf]; exact bot_le
  exact eq_of_forall_ge_iff fun z =>
    (window_bound (fun a z => a ≤ z) (FloatOps.maximumf (F := Ideal) (φ := .f32)) hop x v hw hu hv' n r c z).trans
      (pool01_bound (fun a z => a ≤ z) (FloatOps.maximumf (F := Ideal) (φ := .f32)) _ hpad hop maximumf (fun _ _ _ => rfl)
        x n hr0 hi0 hr1 hi1 r c z).symm

/-- EROSION: the same with the minimum and +∞, by lower bounds. -/
theorem erode_eq (x : FVec Ideal Arr .f32) (v : Sc.Idx → EReal)
    (hw : Arr.ReduceWindows (![1, 1, 5, 5] : Fin 4 → Nat) ![1, 1, 1, 1] ![0, 0, 2, 2] ![0, 0, 2, 2] Arr) (hu : 0 < Sc.numel)
    (hv : v (Shape.Idx.first hu) = Ideal.ofBits .f32 0x7F800000#32)
    (hr0 : Sq.Rotates 0 none) (hi0 : Sq.Iotas .tc 32 [0]) (hr1 : Sq.Rotates 1 none) (hi1 : Sq.Iotas .tc 32 [1])
    (n : Fin 32) (r c : Fin 1024) :
    Host.reduceWindow (FloatOps.minimumf (F := Ideal) (φ := .f32)) ![1, 1, 5, 5] ![1, 1, 1, 1] ![0, 0, 2, 2] ![0, 0, 2, 2] x v hw hu
        (ix4 n (0 : Fin 1) r c)
      = pool minimumf 0 (Scalar.ofBits .f32 0x7F800000#32)
          (pool minimumf 1 (Scalar.ofBits .f32 0x7F800000#32) (slab x n) hr1 hi1) hr0 hi0 (ix2 r c) := by
  have hop : ∀ a b z : EReal, z ≤ FloatOps.minimumf (F := Ideal) (φ := .f32) a b ↔ (z ≤ a ∧ z ≤ b) := fun a b z => le_min_iff
  have hv' : ∀ z : EReal, z ≤ v (Shape.Idx.first hu) := fun z => by rw [hv, ideal_ofBits_pos_inf]; exact le_top
  have hpad : ∀ z : EReal, z ≤ (Scalar.ofBits (F := Ideal) .f32 0x7F800000#32 : EReal) := fun z => by
    rw [ofBits_pos_inf]; exact le_top
  exact eq_of_forall_le_iff fun z =>
    (window_bound (fun a z => z ≤ a) (FloatOps.minimumf (F := Ideal) (φ := .f32)) hop x v hw hu hv' n r c z).trans
      (pool01_bound (fun a z => z ≤ a) (FloatOps.minimumf (F := Ideal) (φ := .f32)) _ hpad hop minimumf (fun _ _ _ => rfl)
        x n hr0 hi0 hr1 hi1 r c z).symm

end Cert.Morph

end
-- ==== Proof.LibArrIdx.lean ====
/-
  The index set of a 32 × 1 × 1024 × 1024 array by its coordinates.

  An index of a rank-4 array whose second extent is one is determined by its first, third and fourth coordinates, so a
  sum (a universally quantified statement) over the index set is the triple sum (the statement for all triples) over the
  coordinates. The first coordinate, below 32, is split once more as 16·a + b with a below 2 and b below 16.
-/
import Idealize.ShloMosaic.Lib.ValueIdx

noncomputable section

open scoped BigOperators

namespace Cert.ArrIdx

open Idealize.ShloMosaic Idealize.ShloMosaic.ValueIdx

/-- The shape of the two arrays. -/
abbrev Arr : Shape := ⟨4, ![32, 1, 1024, 1024]⟩

/-- A rank-4 index set whose second extent is one is the product of its other three coordinate ranges … -/
def idxEquiv4 {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- … so every index is `ix4` of its first, third and fourth coordinates around the zero of the second … -/
theorem eq_ix4_one {n0 n2 n3 : Nat} (k : (⟨4, ![n0, 1, n2, n3]⟩ : Shape).Idx) :
    k = ix4 (k 0) (0 : Fin 1) (k 2) (k 3) :=
  ((idxEquiv4 (n0 := n0) (n2 := n2) (n3 := n3)).left_inv k).symm

/-- … a sum over the index set is the triple sum over the coordinates … -/
theorem sum_idx4_one {M : Type*} [AddCommMonoid M] {n0 n2 n3 : Nat} (f : (⟨4, ![n0, 1, n2, n3]⟩ : Shape).Idx → M) :
    ∑ k, f k = ∑ n : Fin n0, ∑ r : Fin n2, ∑ c : Fin n3, f (ix4 n (0 : Fin 1) r c) := by
  rw [← Equiv.sum_comp (idxEquiv4 (n0 := n0) (n2 := n2) (n3 := n3)).symm f, Fintype.sum_prod_type]
  refine Finset.sum_congr rfl fun n _ => ?_
  rw [Fintype.sum_prod_type]
  rfl

/-- … and a statement holds at every index iff it holds at every triple of coordinates. -/
theorem forall_idx4_one {n0 n2 n3 : Nat} (Q : (⟨4, ![n0, 1, n2, n3]⟩ : Shape).Idx → Prop) :
    (∀ k, Q k) ↔ ∀ (n : Fin n0) (r : Fin n2) (c : Fin n3), Q (ix4 n (0 : Fin 1) r c) := by
  constructor
  · intro h n r c
    exact h _
  · intro h k
    rw [eq_ix4_one k]
    exact h _ _ _

/-- The sum over the array's index set by coordinates. -/
theorem sum_arr {M : Type*} [AddCommMonoid M] (f : Arr.Idx → M) :
    ∑ k, f k = ∑ n : Fin 32, ∑ r : Fin 1024, ∑ c : Fin 1024, f (ix4 n (0 : Fin 1) r c) :=
  sum_idx4_one f

/-- A statement at every index of the array, by coordinates. -/
theorem forall_arr (Q : Arr.Idx → Prop) :
    (∀ k, Q k) ↔ ∀ (n : Fin 32) (r c : Fin 1024), Q (ix4 n (0 : Fin 1) r c) :=
  forall_idx4_one Q

/-- A number below 32 is 16·a + b for exactly one a below 2 and b below 16. -/
def fin32Equiv : Fin 2 × Fin 16 ≃ Fin 32 where
  toFun p := ⟨p.1.val * 16 + p.2.val, by omega⟩
  invFun n := (⟨n.val / 16, by omega⟩, ⟨n.val % 16, by omega⟩)
  left_inv p := by
    obtain ⟨a, b⟩ := p
    refine Prod.ext (Fin.ext ?_) (Fin.ext ?_)
    · show (a.val * 16 + b.val) / 16 = a.val
      omega
    · show (a.val * 16 + b.val) % 16 = b.val
      omega
  right_inv n := by
    refine Fin.ext ?_
    show n.val / 16 * 16 + n.val % 16 = n.val
    omega

/-- A sum over the numbers below 32 is the double sum over a below 2 and b below 16 of the term at 16·a + b. -/
theorem sum_fin32 {M : Type*} [AddCommMonoid M] (g : Fin 32 → M) :
    ∑ n : Fin 32, g n = ∑ a : Fin 2, ∑ b : Fin 16, g ⟨a.val * 16 + b.val, by omega⟩ := by
  rw [← Equiv.sum_comp fin32Equiv g, Fintype.sum_prod_type]
  rfl

/-- A statement holds at every number below 32 iff it holds at every 16·a + b with a below 2 and b below 16. -/
theorem forall_fin32 (Q : Fin 32 → Prop) :
    (∀ n, Q n) ↔ ∀ (a : Fin 2) (b : Fin 16), Q ⟨a.val * 16 + b.val, by omega⟩ := by
  constructor
  · intro h a b
    exact h _
  · intro h n
    have := h (fin32Equiv.symm n).1 (fin32Equiv.symm n).2
    rwa [show (⟨(fin32Equiv.symm n).1.val * 16 + (fin32Equiv.symm n).2.val, by omega⟩ : Fin 32) = n from
      fin32Equiv.right_inv n] at this

end Cert.ArrIdx

end
-- ==== Proof.LibCountGuard.lean ====
/-
  A count, and the inverse square root of a count guarded at zero.

  An accumulating scatter of ones into zeros holds, at each element, the NUMBER of updates that land on it: a natural
  number read as an extended real (the element starts at 0 and every landing update adds 1). For such a value D the
  guarded expression "D^(-1/2) where D > 0, else 0" is D^(-1/2) itself on the extended reals: where the count is positive the
  guard takes the power, and where it is zero the power of two finite values is the real power, whose value at base 0 and
  a nonzero exponent is 0 — the guard's other branch. (In floating point 0^(-1/2) is +∞; the exact real power is not.)
  So a degree normalisation written with the guard and one written without it are the same vector.
  The three float words 0.0, 1.0 and -0.5 are read once, here. Nothing here mentions a program.
-/
import Idealize.ShloMosaic.PureOps.Ideal
import Idealize.ShloMosaic.PureOps.Ideal.Laws

noncomputable section

namespace Cert.CountGuard

open Idealize.ShloMosaic

/-- The word of 1.0 denotes 1. -/
theorem ofBits_one : Ideal.ofBits .f32 0x3F800000#32 = 1 := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- An accumulating scatter of ones into zeros is, at each element, a natural number: the count of the updates landing
    there. -/
theorem count_nat {s si su : Shape} (d : ScatterDims s si su) {w : Nat} (Z : s.Idx → EReal) (idx : IVec si w)
    (O : su.Idx → EReal) (hZ : ∀ i, Z i = 0) (hO : ∀ j, O j = 1) (i : s.Idx) :
    ∃ n : ℕ, Ideal.hostScatterAdd d Z idx O i = ((n : ℝ) : EReal) := by
  unfold Ideal.hostScatterAdd
  refine ⟨?n, ?h⟩
  case h =>
    rw [hZ, zero_add, Finset.sum_congr rfl (fun j _ => hO j), Finset.sum_const, nsmul_one]
    exact EReal.coe_natCast.symm

/-- For a natural number n: n^(-1/2) guarded by n > 0, with 0 otherwise, is n^(-1/2). -/
theorem guarded_pow_nat (n : ℕ) :
    Scalar.select (Ideal.cmp .ogt ((n : ℝ) : EReal) 0) (Ideal.pow ((n : ℝ) : EReal) ((-(1 / 2) : ℝ) : EReal)) (0 : EReal)
      = Ideal.pow ((n : ℝ) : EReal) ((-(1 / 2) : ℝ) : EReal) := by
  unfold Scalar.select
  rcases Nat.eq_zero_or_pos n with rfl | hn
  · have hp : Ideal.pow (((0 : ℕ) : ℝ) : EReal) ((-(1 / 2) : ℝ) : EReal) = 0 := by
      rw [Nat.cast_zero, Ideal.pow_coe_coe]
      show ((Real.rpow 0 (-(1 / 2)) : ℝ) : EReal) = 0
      rw [Real.rpow_eq_pow, Real.zero_rpow (by norm_num)]
      rfl
    rw [hp, Nat.cast_zero]
    simp [Ideal.cmp]
  · have hpos : (0 : EReal) < ((n : ℝ) : EReal) := by exact_mod_cast hn
    have hc : Ideal.cmp .ogt ((n : ℝ) : EReal) 0 = (1 : BitVec 1) := by
      show BitVec.ofBool (decide ((0 : EReal) < ((n : ℝ) : EReal))) = (1 : BitVec 1)
      rw [decide_eq_true hpos]; rfl
    rw [if_pos hc]

/-- The guarded inverse square root of a count vector is the unguarded one: Z, Z', Z'' are zero vectors, O a vector of
    ones, H a vector of -1/2. -/
theorem select_count_pow {s si su : Shape} (d : ScatterDims s si su) {w : Nat} (Z : FVec Ideal s .f32) (idx : IVec si w)
    (O : FVec Ideal su .f32) (Z' H Z'' : FVec Ideal s .f32)
    (hZ : ∀ i, Z i = 0) (hO : ∀ j, O j = 1) (hZ' : ∀ i, Z' i = 0) (hH : ∀ i, H i = ((-(1 / 2) : ℝ) : EReal))
    (hZ'' : ∀ i, Z'' i = 0) :
    select (cmpf .ogt (Host.scatterAdd d Z idx O) Z') (Host.powf (Host.scatterAdd d Z idx O) H) Z''
      = Host.powf (Host.scatterAdd d Z idx O) H := by
  funext i
  obtain ⟨n, hn⟩ := count_nat d Z idx O hZ hO i
  have e : Host.scatterAdd d Z idx O i = ((n : ℝ) : EReal) := hn
  show Scalar.select (Ideal.cmp .ogt (Host.scatterAdd d Z idx O i) (Z' i)) (Ideal.pow (Host.scatterAdd d Z idx O i) (H i)) (Z'' i)
    = Ideal.pow (Host.scatterAdd d Z idx O i) (H i)
  rw [e, hZ', hH, hZ'']
  exact guarded_pow_nat n

end Cert.CountGuard

end
-- ==== Proof.Bridge.lean ====
/-
  The idealized kernel and the idealized reference compute one number.

  Both end in a division of a total by 2^25. The reference's total is the sum over the whole [32, 1, 1024, 1024] array of
  `loss · w'`, with `w'` the edge weight when the global test holds and one otherwise. The kernel's total is the test's
  choice between two totals accumulated side by side: the sum over the two cores of each core's sum over its sixteen
  slabs of the slab's weighted (unweighted) losses. The two tests agree because the greatest (least) target value is one
  number however it is grouped: both are characterised by the same upper (lower) bounds. The two totals agree because a
  sum over the array is the sum over cores, steps, rows and lanes of the same terms; the edge weight is the same because
  the windowed maximum and minimum of the mask are what the separable poolings of a slab compute; and `x · 1 = x`.
  No step uses finiteness: only commutativity and associativity of addition, and the order.
-/
import proofs.«116982_j21784074126165_2_alg».proof.Proof.KIdeal
import proofs.«116982_j21784074126165_2_alg».proof.Proof.KTailRead
import proofs.«116982_j21784074126165_2_alg».proof.Proof.RefForm
import proofs.«116982_j21784074126165_2_alg».proof.Proof.LibMorph
import proofs.«116982_j21784074126165_2_alg».proof.Proof.LibArrIdx
import proofs.«116982_j21784074126165_2_alg».proof.Proof.LibCountGuard

set_option maxRecDepth 16384

noncomputable section

open Idealize.ShloMosaic Idealize.ShloMosaic.TcCoe Idealize.SL.Sem Idealize.ShloMosaic.ValueIdx

namespace Cert.Bridge

open Cert.KernelIdeal.KV Cert.KernelIdeal.KI Cert.KernelIdeal.KT
open Cert.ReferenceIdeal (ReadP.val_main_v3 ReadP.val_main_v5 ReadP.val_main_v10 ReadP.val_main_v11 ReadP.val_main_v12 ReadP.val_main_v20 ReadP.val_main_cst_4 ReadP.val_main_cst_5)

variable (m : (ℓ : Loc Cert.KernelIdeal.nD Cert.KernelIdeal.τ Cert.KernelIdeal.sig) → Buf (Elt Ideal) ℓ) (c : Dev Cert.KernelIdeal.nD)

/-- A bit is zero or one. -/
theorem bit_cases (b : BitVec 1) : b = 0#1 ∨ b = 1#1 := by
  revert b; decide

/-- Slab `k`, as a number of a point, is the number of core `a`'s step `j`. -/
theorem pt_eq (a : Fin 2) (j : Fin 16) : (⟨a.val * 16 + j.val, by omega⟩ : Fin 32).val = 16 * a.val + j.val := by
  show a.val * 16 + j.val = 16 * a.val + j.val; omega

/-! ## The global test -/

/-- The greatest target value, kernel's grouping and reference's. -/
theorem max_eq : tailMax (G4 m c) = ReadP.val_main_v3 (F := Ideal) (T m c) Cert.RefForm.i0 := by
  refine eq_of_forall_ge_iff fun z => ?_
  refine (tailMax_le _ z).trans ?_
  refine Iff.trans ?_ (Cert.RefForm.ref_max_le (T m c) z).symm
  refine Iff.trans ?_ (Cert.ArrIdx.forall_arr (fun k => T m c k ≤ z)).symm
  refine Iff.trans ?_ (Cert.ArrIdx.forall_fin32 (fun n => ∀ r q : Fin 1024, T m c (ix4 n (0 : Fin 1) r q) ≤ z)).symm
  refine forall_congr' fun a => ?_
  show (coreVals m c a.val a.isLt).2.2.1 Cert.KernelIdeal.KV.i000 ≤ z ↔ _
  refine (core_max_le m c a.val a.isLt z).trans ?_
  refine forall_congr' fun j => ?_
  exact slabLe_iff m c z _ _ ⟨a.val * 16 + j.val, by omega⟩ (pt_eq a j)

/-- The least target value, likewise. -/
theorem min_eq : tailMin (G5 m c) = ReadP.val_main_v5 (F := Ideal) (T m c) Cert.RefForm.i0 := by
  refine eq_of_forall_le_iff fun z => ?_
  refine (le_tailMin _ z).trans ?_
  refine Iff.trans ?_ (Cert.RefForm.le_ref_min (T m c) z).symm
  refine Iff.trans ?_ (Cert.ArrIdx.forall_arr (fun k => z ≤ T m c k)).symm
  refine Iff.trans ?_ (Cert.ArrIdx.forall_fin32 (fun n => ∀ r q : Fin 1024, z ≤ T m c (ix4 n (0 : Fin 1) r q))).symm
  refine forall_congr' fun a => ?_
  show z ≤ (coreVals m c a.val a.isLt).2.2.2 Cert.KernelIdeal.KV.i000 ↔ _
  refine (le_core_min m c a.val a.isLt z).trans ?_
  refine forall_congr' fun j => ?_
  exact slabGe_iff m c z _ _ ⟨a.val * 16 + j.val, by omega⟩ (pt_eq a j)

/-! ## The dilated and eroded mask -/

/-- The mask of a point's target block is slab `k` of the reference's mask array. -/
theorem mask_slab (n : ℕ) (h : n < Cert.KernelIdeal.cfg0.N) (k : Fin 32) (hk : k.val = n) :
    maskV (blk1 m c ⟨n, h⟩) = Cert.Morph.slab (ReadP.val_main_v10 (F := Ideal) (T m c)) k := by
  funext j
  obtain ⟨r, q, rfl⟩ : ∃ (r q : Fin 1024), j = ix2 r q := ⟨j 0, j 1, eq_ix2 j⟩
  rw [Cert.Morph.slab_apply, Cert.RefForm.mask_apply]
  exact maskV_blk m c n h k hk r q

/-- The kernel's dilated mask at `(r, q)` of slab `k` is the reference's windowed maximum at `(k, 0, r, q)`. -/
theorem dil_eq (n : ℕ) (h : n < Cert.KernelIdeal.cfg0.N) (k : Fin 32) (hk : k.val = n) (r q : Fin 1024) :
    dilV (blk1 m c ⟨n, h⟩) (ix2 r q) = ReadP.val_main_v11 (F := Ideal) (T m c) (ix4 k (0 : Fin 1) r q) := by
  unfold dilV
  rw [mask_slab m c n h k hk]
  exact (Cert.Morph.dilate_eq (ReadP.val_main_v10 (F := Ideal) (T m c)) (ReadP.val_main_cst_4 (F := Ideal)) _ _ rfl _ _ _ _ k r q).symm

/-- The eroded mask, likewise. -/
theorem ero_eq (n : ℕ) (h : n < Cert.KernelIdeal.cfg0.N) (k : Fin 32) (hk : k.val = n) (r q : Fin 1024) :
    eroV (blk1 m c ⟨n, h⟩) (ix2 r q) = ReadP.val_main_v12 (F := Ideal) (T m c) (ix4 k (0 : Fin 1) r q) := by
  unfold eroV
  rw [mask_slab m c n h k hk]
  exact (Cert.Morph.erode_eq (ReadP.val_main_v10 (F := Ideal) (T m c)) (ReadP.val_main_cst_5 (F := Ideal)) _ _ rfl _ _ _ _ k r q).symm

/-! ## The two totals -/

/-- The cores' sums of losses add up to the sum over the whole array. -/
theorem sum_loss_eq :
    ∑ a : Fin 2, G2 m c (ix3 a (0 : Fin 1) (0 : Fin 1)) = ∑ k : Cert.ArrIdx.Arr.Idx, Cert.Spec.lossAt (P m c k) (T m c k) := by
  refine Eq.trans ?_ (Cert.ArrIdx.sum_arr (fun k => Cert.Spec.lossAt (P m c k) (T m c k))).symm
  refine Eq.trans ?_ (Cert.ArrIdx.sum_fin32 (fun n => ∑ r : Fin 1024, ∑ q : Fin 1024,
    Cert.Spec.lossAt (P m c (ix4 n (0 : Fin 1) r q)) (T m c (ix4 n (0 : Fin 1) r q)))).symm
  refine Finset.sum_congr rfl fun a _ => ?_
  show (coreVals m c a.val a.isLt).1 Cert.KernelIdeal.KV.i000 = _
  refine (core_loss m c a.val a.isLt).trans ?_
  refine Finset.sum_congr rfl fun j _ => ?_
  exact lossSum_eq m c _ _ ⟨a.val * 16 + j.val, by omega⟩ (pt_eq a j)

/-- The cores' sums of weighted losses add up to the sum over the whole array of loss times edge weight. -/
theorem sum_wloss_eq :
    ∑ a : Fin 2, G3 m c (ix3 a (0 : Fin 1) (0 : Fin 1))
      = ∑ k : Cert.ArrIdx.Arr.Idx, Cert.Spec.lossAt (P m c k) (T m c k)
          * Cert.Spec.weightAt (ReadP.val_main_v11 (F := Ideal) (T m c) k) (ReadP.val_main_v12 (F := Ideal) (T m c) k) := by
  refine Eq.trans ?_ (Cert.ArrIdx.sum_arr (fun k => Cert.Spec.lossAt (P m c k) (T m c k)
    * Cert.Spec.weightAt (ReadP.val_main_v11 (F := Ideal) (T m c) k) (ReadP.val_main_v12 (F := Ideal) (T m c) k))).symm
  refine Eq.trans ?_ (Cert.ArrIdx.sum_fin32 (fun n => ∑ r : Fin 1024, ∑ q : Fin 1024,
    Cert.Spec.lossAt (P m c (ix4 n (0 : Fin 1) r q)) (T m c (ix4 n (0 : Fin 1) r q))
      * Cert.Spec.weightAt (ReadP.val_main_v11 (F := Ideal) (T m c) (ix4 n (0 : Fin 1) r q))
          (ReadP.val_main_v12 (F := Ideal) (T m c) (ix4 n (0 : Fin 1) r q)))).symm
  refine Finset.sum_congr rfl fun a _ => ?_
  show (coreVals m c a.val a.isLt).2.1 Cert.KernelIdeal.KV.i000 = _
  refine (core_wloss m c a.val a.isLt).trans ?_
  refine Finset.sum_congr rfl fun j _ => ?_
  refine (wlossSum_eq m c _ _ ⟨a.val * 16 + j.val, by omega⟩ (pt_eq a j)).trans ?_
  refine Finset.sum_congr rfl fun r _ => Finset.sum_congr rfl fun q _ => ?_
  rw [dil_eq m c _ _ ⟨a.val * 16 + j.val, by omega⟩ (pt_eq a j) r q, ero_eq m c _ _ ⟨a.val * 16 + j.val, by omega⟩ (pt_eq a j) r q]

/-! ## The result -/

/-- The kernel's result is the reference's, as extended reals. -/
theorem result_eq (i : Cert.KernelIdeal.S_.Idx) :
    tailV (G2 m c) (G3 m c) (G4 m c) (G5 m c) i = ReadP.val_main_v20 (F := Ideal) (P m c) (T m c) i := by
  rw [tailV_apply, Cert.RefForm.ref_result, max_eq, min_eq]
  congr 1
  generalize Cert.Spec.condBit _ _ = b
  rcases bit_cases b with rfl | rfl
  · simp only [select_zero]
    rw [sum_loss_eq]
    congr 1
    refine Finset.sum_congr rfl fun k _ => ?_
    rw [Cert.CountGuard.ofBits_one, mul_one]
  · simp only [select_one]
    rw [sum_wloss_eq]

end Cert.Bridge

end
-- ==== Proof.lean ====
/-
  The kernel computes a weighted binary-cross-entropy loss of 32 slabs of 1024 × 1024 logits against targets, in one pass
  over a grid of 2 cores × 16 steps, and the reference computes it with whole-array jnp operations. On the extended reals
  the two results are one number.

  Per element the unweighted loss is `softplus p − p·t`. The targets are thresholded at one half to a mask, the mask is
  dilated and eroded over a 5 × 5 window, and an element where the two differ is weighted one tenth, every other one;
  the weights count only when the greatest target of the whole array is one and the least is zero. The result is the
  sum of the (weighted) losses over 2^25.

  The kernel keeps four running values per core — the sum of the losses, the sum of the weighted losses, the greatest
  and the least target — started at a core's first step and stepped once per slab; each core's values are written back
  after its sixteenth step, and the lines after the region combine the two cores' values, choose between the two totals
  by the test, and divide. The reference applies the test's choice element by element to the weight before one sum.
  The kernel dilates and erodes a slab by two window-5 poolings each (lanes, then rows), every shift a rotation with the
  wrapped places masked to −∞ or +∞; the reference by one 5 × 5 windowed reduction padded with the same values.

  The modules, by what they say: one grid point's step as functions of its two blocks, and that the body's stores are
  those functions (KSlab); the induction over the grid (KAcc); the four output arrays after the run (KFinal); the lines
  after the region (KTail) and the whole run read back (KRun); the input blocks as slabs of the arguments (KBlocks); the
  step functions on the extended reals (KRead, KTailRead) and the running values in closed form (LibRunFold, KIdeal); the
  reference's run, its operations at an index, and its result in closed form (RefRun, RefRead, RefForm); windowed
  maximum = separable pooling (LibMorphDefs, LibMorph); sums and bounds over the array regrouped (LibArrIdx); the two results
  agree (Bridge). The frames of both kernels are the generated frame certificates. `preserves` is trivial: the ideal
  pass rewrote no operation.
-/
import proofs.«116982_j21784074126165_2_alg».proof.Defs
import proofs.«116982_j21784074126165_2_alg».proof.Proof.Gen.Kernel
import proofs.«116982_j21784074126165_2_alg».proof.Proof.Gen.Kernel.Skeleton
import proofs.«116982_j21784074126165_2_alg».proof.Proof.Gen.Kernel.Launch
import proofs.«116982_j21784074126165_2_alg».proof.Proof.Gen.Kernel.Points
import proofs.«116982_j21784074126165_2_alg».proof.Proof.Gen.Kernel.Frame
import proofs.«116982_j21784074126165_2_alg».proof.Proof.Gen.KernelIdeal
import proofs.«116982_j21784074126165_2_alg».proof.Proof.Gen.KernelIdeal.Skeleton
import proofs.«116982_j21784074126165_2_alg».proof.Proof.Gen.KernelIdeal.Launch
import proofs.«116982_j21784074126165_2_alg».proof.Proof.Gen.KernelIdeal.Points
import proofs.«116982_j21784074126165_2_alg».proof.Proof.Gen.KernelIdeal.Frame
import proofs.«116982_j21784074126165_2_alg».proof.Proof.Gen.ReferenceIdeal
import proofs.«116982_j21784074126165_2_alg».proof.Proof.RefRun
import proofs.«116982_j21784074126165_2_alg».proof.Proof.RefRead
import proofs.«116982_j21784074126165_2_alg».proof.Proof.Gen.Pre_finite_inputs
import proofs.«116982_j21784074126165_2_alg».proof.Proof.KRun
import proofs.«116982_j21784074126165_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both idealized programs end with the same number: the kernel's, the lines
    after the region applied to its four arrays; the reference's, its last operation's value; equal by `Bridge.result_eq`. -/
theorem algebraic : Cert.algebraic_KernelIdeal_ReferenceIdeal := by
  intro m ρ m' ρ' _ hagree
  refine ⟨fun c => Cert.KernelIdeal.KV.tailV (Cert.KernelIdeal.KV.G2 m c) (Cert.KernelIdeal.KV.G3 m c)
    (Cert.KernelIdeal.KV.G4 m c) (Cert.KernelIdeal.KV.G5 m c), Cert.KernelIdeal.KV.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v20_eq, (hagree c).1, (hagree c).2]
  exact (funext fun i => Cert.Bridge.result_eq m c i).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
